-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x1 : Shape := ⟨2, ![8192, 1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192x1 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192x1 : Shape := ⟨2, ![8192, 1]⟩
abbrev S1x8192 : Shape := ⟨2, ![1, 8192]⟩
abbrev S512x128 : Shape := ⟨2, ![512, 128]⟩
abbrev S512x1 : Shape := ⟨2, ![512, 1]⟩
abbrev S1024x128 : Shape := ⟨2, ![1024, 128]⟩
abbrev S1x1024 : Shape := ⟨2, ![1, 1024]⟩
abbrev S512x1024 : Shape := ⟨2, ![512, 1024]⟩
abbrev S512 : Shape := ⟨1, ![512]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x1, .i32⟩
  | .hbm, ⟨2, _⟩ => ⟨S8192x1, .f32⟩
  | .hbm, ⟨3, _⟩ => ⟨S1x8192, .f32⟩
  | .hbm, ⟨4, _⟩ => ⟨S8192x1, .f32⟩
  | .hbm, ⟨5, _⟩ => ⟨S_, .f32⟩
  | .hbm, ⟨6, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x1, .f32⟩
  | .local _ .vmem, ⟨3, _⟩ => ⟨S512x1, .f32⟩
  | .local _ .vmem, ⟨4, _⟩ => ⟨S8192x128, .f32⟩
  | .local _ .vmem, ⟨5, _⟩ => ⟨S1x8192, .f32⟩
  | .local _ .vmem, ⟨6, _⟩ => ⟨S512x1, .f32⟩
  | .local _ .vmem, ⟨7, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c1024_i32 : BitVec 32 := 1024#32
  let v36 : BitVec 32 := Scalar.muli arg6 c1024_i32
  v36
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1024_i32 : BitVec 32 := 1024#32
  let v36 : BitVec 32 := Scalar.muli arg6 c1024_i32
  let v37 : BitVec 32 := v36
  let v38 : Index := Scalar.indexCast v37
  let c0_24 : Index := 0#32
  ![v38.toNat, 0]
def k0_off2 (k0_t1 : Fin k0_t1_loop.trips) : Fin 2 → Nat :=
  let c0_25 : Index := 0#32
  let c0_i32 : BitVec 32 := 0#32
  let c1_i32 : BitVec 32 := 1#32
  let arg6 : BitVec 32 := Scf.iv c0_i32 c1_i32 k0_t1
  let c1024_i32 : BitVec 32 := 1024#32
  let v36 : BitVec 32 := Scalar.muli arg6 c1024_i32
  let v37 : BitVec 32 := v36
  let v40 : Index := Scalar.indexCast v37
  ![0, v40.toNat]
@[reducible] def k0_t2_loop : Scf.Loop 32 :=
  let c0_i32_11 : BitVec 32 := 0#32
  let c8_i32_12 : BitVec 32 := 8#32
  let v13 : BitVec 32 := Scalar.addi c0_i32_11 c8_i32_12
  let c1_i32_13 : BitVec 32 := 1#32
  ⟨c0_i32_11, v13, c1_i32_13⟩
def k0_mult2 (k0_t2 : Fin k0_t2_loop.trips) : BitVec 32 :=
  let c0_i32_11 : BitVec 32 := 0#32
  let c1_i32_13 : BitVec 32 := 1#32
  let arg6 : BitVec 32 := Scf.iv c0_i32_11 c1_i32_13 k0_t2
  let c1024_i32 : BitVec 32 := 1024#32
  let v36 : BitVec 32 := Scalar.muli arg6 c1024_i32
  v36
def k0_off3 (k0_t2 : Fin k0_t2_loop.trips) : Fin 2 → Nat :=
  let c0_i32_11 : BitVec 32 := 0#32
  let c1_i32_13 : BitVec 32 := 1#32
  let arg6 : BitVec 32 := Scf.iv c0_i32_11 c1_i32_13 k0_t2
  let c1024_i32 : BitVec 32 := 1024#32
  let v36 : BitVec 32 := Scalar.muli arg6 c1024_i32
  let v37 : BitVec 32 := v36
  let v38 : Index := Scalar.indexCast v37
  let c0_24 : Index := 0#32
  ![v38.toNat, 0]
def k0_off4 (k0_t2 : Fin k0_t2_loop.trips) : Fin 2 → Nat :=
  let c0_25 : Index := 0#32
  let c0_i32_11 : BitVec 32 := 0#32
  let c1_i32_13 : BitVec 32 := 1#32
  let arg6 : BitVec 32 := Scf.iv c0_i32_11 c1_i32_13 k0_t2
  let c1024_i32 : BitVec 32 := 1024#32
  let v36 : BitVec 32 := Scalar.muli arg6 c1024_i32
  let v37 : BitVec 32 := v36
  let v40 : Index := Scalar.indexCast v37
  ![0, v40.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192x1_S1x8192 : S8192x1.ShapeCasts S1x8192
  inb_S512x128_S512x128_0_0 : ∀ a, (![0, 0] : Fin 2 → Nat) a + S512x128.size a ≤ S512x128.size a
  h_S512x128 : 0 < S512x128.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1024x128 : 0 < S1024x128.numel
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  reducesTo_S8192x1_S_d0_1 : S8192x1.ReducesTo [0, 1] S_
  h_S_ : 0 < S_.numel
  dot_S512x128_S1024x128_S512x1024_1_1_0_0_n_n_wf : DotDims.WF S512x128 S1024x128 S512x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S8192x128.size a
  k0_off2_inb : ∀ k0_t1 : Fin k0_t1_loop.trips, ∀ a, (k0_off2 k0_t1) a + S1x1024.size a ≤ S1x8192.size a
  k0_t2_ok : k0_t2_loop.OK
  k0_mult2_dvd : ∀ k0_t2 : Fin k0_t2_loop.trips, 1024 ∣ (k0_mult2 k0_t2).toNat
  k0_off3_inb : ∀ k0_t2 : Fin k0_t2_loop.trips, ∀ a, (k0_off3 k0_t2) a + S1024x128.size a ≤ S8192x128.size a
  k0_off4_inb : ∀ k0_t2 : Fin k0_t2_loop.trips, ∀ a, (k0_off4 k0_t2) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x1 : Shape := ⟨2, ![8192, 1]⟩
abbrev S128x8192 : Shape := ⟨2, ![128, 8192]⟩
abbrev S8192x8192 : Shape := ⟨2, ![8192, 8192]⟩
abbrev S8192x1x1 : Shape := ⟨3, ![8192, 1, 1]⟩
abbrev S1x8192x1 : Shape := ⟨3, ![1, 8192, 1]⟩
abbrev S8192x8192x1 : Shape := ⟨3, ![8192, 8192, 1]⟩
abbrev S_ : Shape := ⟨0, ![]⟩
abbrev S8192 : Shape := ⟨1, ![8192]⟩

abbrev nBuf : Space → Nat
  | .hbm => 101
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1, .i32⟩
  | .hbm, ⟨2, _⟩ => ⟨S8192x1, .f32⟩
  | .hbm, ⟨3, _⟩ => ⟨S128x8192, .f32⟩
  | .hbm, ⟨4, _⟩ => ⟨S8192x8192, .f32⟩
  | .hbm, ⟨5, _⟩ => ⟨S8192x1x1, .f32⟩
  | .hbm, ⟨6, _⟩ => ⟨S1x8192x1, .f32⟩
  | .hbm, ⟨7, _⟩ => ⟨S8192x8192x1, .f32⟩
  | .hbm, ⟨8, _⟩ => ⟨S8192x8192x1, .f32⟩
  | .hbm, ⟨9, _⟩ => ⟨S8192x8192x1, .f32⟩
  | .hbm, ⟨10, _⟩ => ⟨S8192x8192x1, .f32⟩
  | .hbm, ⟨11, _⟩ => ⟨S_, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .i1⟩
  | .hbm, ⟨19, _⟩ => ⟨S8192x8192, .i1⟩
  | .hbm, ⟨20, _⟩ => ⟨S_, .f32⟩
  | .hbm, ⟨21, _⟩ => ⟨S8192x8192, .f32⟩
  | .hbm, ⟨22, _⟩ => ⟨S8192x8192, .i1⟩
  | .hbm, ⟨23, _⟩ => ⟨S_, .i1⟩
  | .hbm, ⟨24, _⟩ => ⟨S8192, .i1⟩
  | .hbm, ⟨25, _⟩ => ⟨S_, .i1⟩
  | .hbm, ⟨26, _⟩ => ⟨S8192, .i1⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x1, .f32⟩
  | .hbm, ⟨43, _⟩ => ⟨S8192x8192, .f32⟩
  | .hbm, ⟨44, _⟩ => ⟨S8192x8192, .i1⟩
  | .hbm, ⟨45, _⟩ => ⟨S8192x8192, .i1⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x1, .f32⟩
  | .hbm, ⟨50, _⟩ => ⟨S8192x8192, .f32⟩
  | .hbm, ⟨51, _⟩ => ⟨S8192x8192, .i1⟩
  | .hbm, ⟨52, _⟩ => ⟨S8192x8192, .i1⟩
  | .hbm, ⟨53, _⟩ => ⟨S_, .i1⟩
  | .hbm, ⟨54, _⟩ => ⟨S8192, .i1⟩
  | .hbm, ⟨55, _⟩ => ⟨S_, .i1⟩
  | .hbm, ⟨56, _⟩ => ⟨S8192, .i1⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S8192, .f32⟩
  | .hbm, ⟨92, _⟩ => ⟨S8192, .i1⟩
  | .hbm, ⟨93, _⟩ => ⟨S8192, .i1⟩
  | .hbm, ⟨94, _⟩ => ⟨S8192, .i1⟩
  | .hbm, ⟨95, _⟩ => ⟨S_, .f32⟩
  | .hbm, ⟨96, _⟩ => ⟨S_, .f32⟩
  | .hbm, ⟨97, _⟩ => ⟨S8192, .f32⟩
  | .hbm, ⟨98, _⟩ => ⟨S8192, .f32⟩
  | .hbm, ⟨99, _⟩ => ⟨S_, .f32⟩
  | .hbm, ⟨100, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_c_11 : Ref sig .tc := ⟨.hbm, 55, rfl⟩
abbrev main_v36 : Ref sig .tc := ⟨.hbm, 56, rfl⟩
abbrev main_cst_12 : Ref sig .tc := ⟨.hbm, 57, rfl⟩
abbrev main_v37 : Ref sig .tc := ⟨.hbm, 58, rfl⟩
abbrev main_v38 : Ref sig .tc := ⟨.hbm, 59, rfl⟩
abbrev main_cst_13 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_14 : Ref sig .tc := ⟨.hbm, 64, rfl⟩
abbrev main_call2_v0 : Ref sig .tc := ⟨.hbm, 65, rfl⟩
abbrev main_call2_v1 : Ref sig .tc := ⟨.hbm, 66, rfl⟩
abbrev main_v42 : Ref sig .tc := ⟨.hbm, 67, rfl⟩
abbrev main_cst_15 : Ref sig .tc := ⟨.hbm, 68, rfl⟩
abbrev main_v43 : Ref sig .tc := ⟨.hbm, 69, rfl⟩
abbrev main_cst_16 : Ref sig .tc := ⟨.hbm, 70, rfl⟩
abbrev main_v44 : Ref sig .tc := ⟨.hbm, 71, rfl⟩
abbrev main_v45 : Ref sig .tc := ⟨.hbm, 72, rfl⟩
abbrev main_cst_17 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_18 : Ref sig .tc := ⟨.hbm, 77, rfl⟩
abbrev main_call3_v0 : Ref sig .tc := ⟨.hbm, 78, rfl⟩
abbrev main_call3_v1 : Ref sig .tc := ⟨.hbm, 79, rfl⟩
abbrev main_v49 : Ref sig .tc := ⟨.hbm, 80, rfl⟩
abbrev main_cst_19 : Ref sig .tc := ⟨.hbm, 81, rfl⟩
abbrev main_v50 : Ref sig .tc := ⟨.hbm, 82, rfl⟩
abbrev main_v51 : Ref sig .tc := ⟨.hbm, 83, rfl⟩
abbrev main_cst_20 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_21 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_22 : Ref sig .tc := ⟨.hbm, 95, rfl⟩
abbrev main_call4_v0 : Ref sig .tc := ⟨.hbm, 96, rfl⟩
abbrev main_call4_v1 : Ref sig .tc := ⟨.hbm, 97, rfl⟩
abbrev main_v61 : Ref sig .tc := ⟨.hbm, 98, rfl⟩
abbrev main_cst_23 : Ref sig .tc := ⟨.hbm, 99, rfl⟩
abbrev main_v62 : Ref sig .tc := ⟨.hbm, 100, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S8192x1_S8192x1x1_0_2 : S8192x1.BroadcastsInDim S8192x1x1 (![0, 2] : Fin 2 → Fin S8192x1x1.rank)
  bcast_S8192x1_S1x8192x1_1_2 : S8192x1.BroadcastsInDim S1x8192x1 (![1, 2] : Fin 2 → Fin S1x8192x1.rank)
  bcast_S8192x1x1_S8192x8192x1_0_1_2 : S8192x1x1.BroadcastsInDim S8192x8192x1 (![0, 1, 2] : Fin 3 → Fin S8192x8192x1.rank)
  bcast_S1x8192x1_S8192x8192x1_0_1_2 : S1x8192x1.BroadcastsInDim S8192x8192x1 (![0, 1, 2] : Fin 3 → Fin S8192x8192x1.rank)
  reducesTo_S8192x8192x1_S8192x8192_d2 : S8192x8192x1.ReducesTo [2] S8192x8192
  h_S_ : 0 < S_.numel
  bcast_S_S8192x8192 : S_.BroadcastsInDim S8192x8192 (![] : Fin 0 → Fin S8192x8192.rank)
  reducesTo_S8192x8192_S8192_d1 : S8192x8192.ReducesTo [1] S8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Body.lean ====
import proofs.«112171_j81698867904771_2_alg».proof.Proof.Gen.Kernel.Launch
import proofs.«112171_j81698867904771_2_alg».proof.Proof.Gen.Kernel.Skeleton
import proofs.«112171_j81698867904771_2_alg».proof.Proof.Gen.Kernel.Loops
import proofs.«112171_j81698867904771_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them

  Two host operations run before the region: the labels are converted to floats (main_v0) and that column is re-laid as a
  row (main_v1). The region's windows read the features twice (a 512-row block, and the whole array), the float labels
  as a 512-row block of the column, and the whole row of labels; its one output is a 512-row block of the loss column. -/

/-- Core c's buffers at launch, as a valuation; -/
abbrev V₀ (c : Dev nD) : Valuation τ sig (Elt F) := fun b => m (c, b)
/-- and when the region is entered: the two host operations have run. -/
abbrev V (c : Dev nD) (b : Ref sig .tc) : Buf (Elt F) ((c : Thread nD τ).loc b) := StableHlo.after hostOps0 (V₀ m c) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the pipeline fetched it there or
    not (the two whole-array windows are fetched at the first point only: their block index never moves). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body on any staging memrefs -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)

set_option maxHeartbeats 4000000 in
/-- What the body's one store leaves in the output's staging memref, as a list of pieces, with the proof that on whole
    staging memrefs — the four inputs' at their contents, the output's at anything — the body runs to the continuation
    holding the inputs' as they were and the output's with that piece written. The two counted loops carry their four
    columns in registers and store nothing: the run goes through each by its invariant, the carried columns after the
    last trip entering the stored value. -/
noncomputable def kernelRun (c : Dev nD) (i : grid0.Coords) (arg1 : Memref sig .tc .vmem S512x128 .f32) (harg1 : arg1.IsWhole) (arg2 : Memref sig .tc .vmem S512x1 .f32) (harg2 : arg2.IsWhole) (arg3 : Memref sig .tc .vmem S8192x128 .f32) (harg3 : arg3.IsWhole) (arg4 : Memref sig .tc .vmem S1x8192 .f32) (harg4 : arg4.IsWhole) (arg5 : Memref sig .tc .vmem S512x1 .f32) (harg5 : arg5.IsWhole)
    (x0 : Vec F S512x128 .f32) (x1 : Vec F S512x1 .f32) (x2 : Vec F S8192x128 .f32) (x3 : Vec F S1x8192 .f32) :
    { L : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L)) -∗ K ⟨⟩))
          ⊢ wp frame (wpE (defs₀ (F := F)) Variants.none c none) E (cc0_kernel i arg1 harg1 arg2 harg2 arg3 harg3 arg4 harg4 arg5 harg5) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The one stored piece is the whole block, so the pieces cover it. -/
theorem cover_out (c : Dev nD) (i : grid0.Coords) (arg1 : Memref sig .tc .vmem S512x128 .f32) (harg1 : arg1.IsWhole) (arg2 : Memref sig .tc .vmem S512x1 .f32) (harg2 : arg2.IsWhole) (arg3 : Memref sig .tc .vmem S8192x128 .f32) (harg3 : arg3.IsWhole) (arg4 : Memref sig .tc .vmem S1x8192 .f32) (harg4 : arg4.IsWhole) (arg5 : Memref sig .tc .vmem S512x1 .f32) (harg5 : arg5.IsWhole)
    (x0 : Vec F S512x128 .f32) (x1 : Vec F S512x1 .f32) (x2 : Vec F S8192x128 .f32) (x3 : Vec F S1x8192 .f32) (y : S512x1.Idx) :
    ∃ pc ∈ (kernelRun c i arg1 harg1 arg2 harg2 arg3 harg3 arg4 harg4 arg5 harg5 x0 x1 x2 x3).1, y ∈ pc.1.set :=
  View.cover_of_tiledL (kernelRun c i arg1 harg1 arg2 harg2 arg3 harg3 arg4 harg4 arg5 harg5 x0 x1 x2 x3).1 S512x1.size (by sl_kernel_rfl) y

/-- What the body leaves in the output's staging buffer. -/
def outBlk (c : Dev nD) (i : grid0.Coords) (arg1 : Memref sig .tc .vmem S512x128 .f32) (harg1 : arg1.IsWhole) (arg2 : Memref sig .tc .vmem S512x1 .f32) (harg2 : arg2.IsWhole) (arg3 : Memref sig .tc .vmem S8192x128 .f32) (harg3 : arg3.IsWhole) (arg4 : Memref sig .tc .vmem S1x8192 .f32) (harg4 : arg4.IsWhole) (arg5 : Memref sig .tc .vmem S512x1 .f32) (harg5 : arg5.IsWhole)
    (x0 : Vec F S512x128 .f32) (x1 : Vec F S512x1 .f32) (x2 : Vec F S8192x128 .f32) (x3 : Vec F S1x8192 .f32) : Vec F S512x1 .f32 :=
  View.canon (kernelRun c i arg1 harg1 arg2 harg2 arg3 harg3 arg4 harg4 arg5 harg5 x0 x1 x2 x3).1

/-! ## The pipeline's proof data -/

/-- The proof data on core c: the arrays as the region finds them; after the body at point t each input's buffer at
    its block and the output's at what the body stored; no invariant beside (the body names no scratch, semaphore or generator);
    nothing owed. The features array is read by two windows: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk c (grid0.coords t) (ms0 t) (hs0 t) (ms1 t) (hs1 t) (ms2 t) (hs2 t) (ms3 t) (hs3 t) (ms4 t) (hs4 t) (iblk m c 0 t) (iblk m c 1 t) (iblk m c 2 t) (iblk m c 3 t)
  Φ _ := (BI.emp : sProp 𝕄)
  q w := match w with
    | ⟨0, _⟩ => fullShare.left
    | ⟨1, _⟩ => fullShare
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t
    = outBlk c (grid0.coords t) (ms0 t) (hs0 t) (ms1 t) (hs1 t) (ms2 t) (hs2 t) (ms3 t) (hs3 t) (ms4 t) (hs4 t) (iblk m c 0 t) (iblk m c 1 t) (iblk m c 2 t) (iblk m c 3 t) := by
  dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' memrefs hold their blocks, so the run applies; the invariant and the core's
    owes pass through unread; the output's buffer ends at the stored piece read back, which covers it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  unfold outBlk
  iintro ⟨HΦ, Ho, ⟨%d0, H0⟩, ⟨%d1, H1⟩, ⟨%d2, H2⟩, ⟨%d3, H3⟩, ⟨%d4, H4⟩⟩
  iapply ((kernelRun c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_eq_canon _ _ _ (cover_out c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
import proofs.«112171_j81698867904771_2_alg».proof.Proof.K.Body
import Idealize.ShloMosaic.Lib.Pipeline.Regions
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program as three stretches

  Two host operations (the labels as floats; that column as a row), the region, two host operations (a zero; the sum of
  the region's loss column). Between the stretches the core holds its seven arrays whole; the region takes the
  features array in two halves, one for each of the two windows that read it, and gives the halves back. -/

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the arrays through the host operations: that the core owes nothing. -/
abbrev R (c : Dev nD) : sProp 𝕄 := iprop(∃ W, owes (c : Thread nD τ) (0 : CellTallies nD τ sig Unit) W)

/-- The arrays when the region is entered, as a valuation. -/
abbrev V1 (c : Dev nD) : Valuation τ sig (Elt F) := StableHlo.after hostOps0 (V₀ m c)

/-- The loss column after the region: every block written back. -/
def outArr (c : Dev nD) : Buf (Elt F) ((c : Thread nD τ).loc main_v2) := (dats m 0 c).arrAt 4 cfg0.N

/-- The arrays when the region is left: the loss column written, the others as they were. -/
def V2 (c : Dev nD) : Valuation τ sig (Elt F) := Function.update (V1 m c) (Proc.devRef .tc main_v2) (outArr m c)

/-- The arrays at the end. -/
abbrev Vn (c : Dev nD) : Valuation τ sig (Elt F) := StableHlo.after hostOps1 (V2 m c)

omit [FloatOps F] in
/-- The core's seven arrays one by one. -/
theorem ub_chain (c : Dev nD) (Vf : (b : Ref sig .tc) → Buf (Elt F) ((c : Thread nD τ).loc b)) :
    (unscopedBufs c Vf : sProp 𝕄) = iprop((((c : Thread nD τ).loc main_arg0) ↦{fullShare} Vf main_arg0) ∗ (((c : Thread nD τ).loc main_arg1) ↦{fullShare} Vf main_arg1)
      ∗ (((c : Thread nD τ).loc main_v0) ↦{fullShare} Vf main_v0) ∗ (((c : Thread nD τ).loc main_v1) ↦{fullShare} Vf main_v1)
      ∗ (((c : Thread nD τ).loc main_v2) ↦{fullShare} Vf main_v2) ∗ (((c : Thread nD τ).loc main_cst) ↦{fullShare} Vf main_cst)
      ∗ (((c : Thread nD τ).loc main_v3) ↦{fullShare} Vf main_v3)) := by
  unfold unscopedBufs
  exact bigSep_eq_bigSepL_of_eq [main_arg0, main_arg1, main_v0, main_v1, main_v2, main_cst, main_v3] (by decide) (by decide) _

/-- The pipeline's arrays window by window, each at its share. -/
theorem arrays_chain (c : Dev nD) (Fa : (w : Fin cfg0.W) → Buf (Elt F) ((cfg0.win w).arr.view.loc (c : Thread nD τ))) :
    ((dats m 0 c).arrays Fa : sProp 𝕄) = iprop((((c : Thread nD τ).loc main_arg0) ↦{fullShare.left} Fa 0) ∗ (((c : Thread nD τ).loc main_v0) ↦{fullShare} Fa 1)
      ∗ (((c : Thread nD τ).loc main_arg0) ↦{fullShare.right} Fa 2) ∗ (((c : Thread nD τ).loc main_v1) ↦{fullShare} Fa 3)
      ∗ (((c : Thread nD τ).loc main_v2) ↦{fullShare} Fa 4)) := by
  unfold Dat.arrays
  rw [bigSep_W0]
  rw [(arr_whole0 0).set_eq_univ, (arr_whole0 1).set_eq_univ, (arr_whole0 3).set_eq_univ, (arr_whole0 4).set_eq_univ]
  rfl

theorem hostOps0_fresh : ∀ op ∈ (hostOps0 (F := F)), op.fresh = ∅ := by
  intro _ h; (repeat (cases h with | head => rfl | tail _ h => ?_)); exact nomatch h
theorem hostOps1_fresh : ∀ op ∈ (hostOps1 (F := F)), op.fresh = ∅ := by
  intro _ h; (repeat (cases h with | head => rfl | tail _ h => ?_)); exact nomatch h

/-- The first stretch: the two host operations before the region. -/
def seg0 : Pipeline.HostSeg (Name := ℕ) (U := UR sig nD τ) (pcfgs (F := F)) defs₀ 𝒱₀ L lv :=
  Pipeline.HostSeg.ofOps _ _ _ _ _ (ucRefs τ sig) hostOps0 (fun op h => Pipeline.sub_ucRefs op ((List.forall_iff_forall_mem.mp hostOps0_sub) op h))
    hostOps0_fresh (V₀ m) R

/-- The last stretch: the two host operations after the region. -/
def seg1 : Pipeline.HostSeg (Name := ℕ) (U := UR sig nD τ) (pcfgs (F := F)) defs₀ 𝒱₀ L lv :=
  Pipeline.HostSeg.ofOps _ _ _ _ _ (ucRefs τ sig) hostOps1 (fun op h => Pipeline.sub_ucRefs op ((List.forall_iff_forall_mem.mp hostOps1_sub) op h))
    hostOps1_fresh (V2 m) R

theorem V_eq (c : Dev nD) (b : Ref sig .tc) : V m c b = V1 m c (Proc.devRef .tc b) := rfl

theorem A0 (c : Dev nD) : (dats m 0 c).A 0 = V1 m c (Proc.devRef .tc main_arg0) := rfl
theorem A1 (c : Dev nD) : (dats m 0 c).A 1 = V1 m c (Proc.devRef .tc main_v0) := rfl
theorem A2 (c : Dev nD) : (dats m 0 c).A 2 = V1 m c (Proc.devRef .tc main_arg0) := rfl
theorem A3 (c : Dev nD) : (dats m 0 c).A 3 = V1 m c (Proc.devRef .tc main_v1) := rfl

theorem V2_v2 (c : Dev nD) : V2 m c (Proc.devRef .tc main_v2) = outArr m c := Function.update_self ..
theorem V2_ne (c : Dev nD) (b : Ref sig .tc) (hb : b ≠ main_v2) : V2 m c (Proc.devRef .tc b) = V1 m c (Proc.devRef .tc b) :=
  Function.update_of_ne (fun e => hb (Proc.devRef_injective _ e)) ..

set_option backward.isDefEq.respectTransparency.types false in
/-- The region: entered with the seven arrays whole, the features array split between its two windows; left with the
    halves joined again and the loss column at what the write-backs made it. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (ucRefs τ sig) (V1 m c) ∗ R c)
  post c := iprop(StableHlo.held (c : Thread nD τ) (ucRefs τ sig) (V2 m c) ∗ R c)
  X c := iprop(emp)
  Y c := iprop(emp)
  Z c := iprop((((c : Thread nD τ).loc main_arg1) ↦{fullShare} V m c main_arg1) ∗ (((c : Thread nD τ).loc main_cst) ↦{fullShare} V m c main_cst)
      ∗ (((c : Thread nD τ).loc main_v3) ↦{fullShare} V m c main_v3))
  hentry c := by
    rw [show StableHlo.held (c : Thread nD τ) (ucRefs τ sig) (V1 m c) = unscopedBufs c (V m c) from (Pipeline.unscopedBufs_held c _).symm,
      ub_chain, arrays_chain]
    iintro ⟨⟨⟨Ha0, Ha1, Hv0, Hv1, Hv2, Hcst, Hv3⟩, HO⟩, -, -⟩
    ihave Hs := (pointsTo_share (PosShare.mem_left_op_right fullShare)).1 $$ Ha0
    icases Hs with ⟨HL, HR⟩
    imodintro
    isplitl [HL Hv0 HR Hv1 Hv2]
    · isplitl [HL]; · iexact HL
      isplitl [Hv0]; · iexact Hv0
      isplitl [HR]; · iexact HR
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Ha1]; · iexact Ha1
    isplitl [Hcst]; · iexact Hcst
    iexact Hv3
  hin c := by
    rw [show (dats m 0 c).Φ 0 = (BI.emp : sProp 𝕄) from rfl]
    iintro -; iempintro
  hout c := by
    rw [Pipeline.ownSems0_none, scopedRest0_eq, show (dats m 0 c).Φ (Fin.last cfg0.N) = (BI.emp : sProp 𝕄) from rfl]
    iintro -
    isplitr; · iempintro
    isplitr <;> iempintro
  hexit c := by
    rw [show StableHlo.held (c : Thread nD τ) (ucRefs τ sig) (V2 m c) = unscopedBufs c (fun b => V2 m c (Proc.devRef .tc b)) from (Pipeline.unscopedBufs_held c _).symm,
      ub_chain, arrays_chain]
    rw [(dats m 0 c).arrAt_in 0 rfl _, (dats m 0 c).arrAt_in 1 rfl _, (dats m 0 c).arrAt_in 2 rfl _, (dats m 0 c).arrAt_in 3 rfl _, A0, A1, A2, A3]
    rw [V2_v2, V2_ne m c main_arg0 (by decide), V2_ne m c main_arg1 (by decide), V2_ne m c main_v0 (by decide), V2_ne m c main_v1 (by decide),
      V2_ne m c main_cst (by decide), V2_ne m c main_v3 (by decide)]
    iintro ⟨⟨HL, Hv0, HR, Hv1, Hv2⟩, HO, -, ⟨Ha1, Hcst, Hv3⟩⟩
    ihave Ha0 := (pointsTo_share (PosShare.mem_left_op_right fullShare)).2 $$ [HL HR]
    · isplitl [HL] <;> iassumption
    imodintro
    isplitr [HO]
    · isplitl [Ha0]; · iexact Ha0
      isplitl [Ha1]; · iexact Ha1
      isplitl [Hv0]; · iexact Hv0
      isplitl [Hv1]; · iexact Hv1
      isplitl [Hv2]; · iexact Hv2
      isplitl [Hcst]; · iexact Hcst
      iexact Hv3
    · unfold Pipeline.Dat.owesAt Pipeline.owesWithin
      icases HO with ⟨%W, -, HO⟩; iexists W; iexact HO

/-- The program as the list of the three. -/
abbrev segs : List (Pipeline.Seg (pcfgs (F := F)) adm (dats m) () defs₀ 𝒱₀ L lv) := [.host (seg0 m), .region (reg0 m), .host (seg1 m)]

/-- What a final state is read for: the result at the last host operation's value, the two arguments as launched. -/
def QC : PUnit × MemSt nD τ sig (Elt F) → Prop := fun r =>
  ∀ c : Dev nD, r.2.mem ((c : Thread nD τ).loc main_v3) = Vn m c (Proc.devRef .tc main_v3)
    ∧ r.2.mem ((c : Thread nD τ).loc main_arg0) = m ((c : Thread nD τ).loc main_arg0)
    ∧ r.2.mem ((c : Thread nD τ).loc main_arg1) = m ((c : Thread nD τ).loc main_arg1)

/-- No host operation writes an argument. -/
theorem ops0_keep (b : Ref sig .tc) (hb : b ≠ main_v0 ∧ b ≠ main_v1) : ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.unary_writes, StableHlo.reshape_writes, Finset.mem_singleton] <;>
    exact StableHlo.devRef_ne_of_ne ‹_›
theorem ops1_keep (b : Ref sig .tc) (hb : b ≠ main_cst ∧ b ≠ main_v3) : ∀ op ∈ (hostOps1 (F := F)), Proc.devRef .tc b ∉ op.writes := by
  obtain ⟨h0, h1⟩ := hb
  intro op hop
  simp only [List.mem_cons, List.mem_nil_iff, or_false] at hop
  rcases hop with rfl | rfl <;>
    simp only [StableHlo.nullary_writes, StableHlo.binary_writes, Finset.mem_singleton] <;>
    exact StableHlo.devRef_ne_of_ne ‹_›

theorem Vn_arg (c : Dev nD) (b : Ref sig .tc) (h0 : b ≠ main_v0 ∧ b ≠ main_v1) (h1 : b ≠ main_cst ∧ b ≠ main_v3) (h2 : b ≠ main_v2) :
    Vn m c (Proc.devRef .tc b) = m ((c : Thread nD τ).loc b) :=
  (StableHlo.after_of_forall_not_mem (b := Proc.devRef .tc b) hostOps1 (V2 m c) (ops1_keep b h1)).trans
    ((V2_ne m c b h2).trans (StableHlo.after_of_forall_not_mem (b := Proc.devRef .tc b) hostOps0 (V₀ m c) (ops0_keep b h0)))

set_option backward.isDefEq.respectTransparency.types false in
/-- At the compiled mesh, for any float values, from any memory with zero counters: every weakly fair execution of the
    program terminates, nothing faulting, with the result at the sum of the loss column the write-backs made and both
    arguments as they were. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m c) ∗ R c))
    (Tₙ := fun c => StableHlo.held (c : Thread nD τ) (ucRefs τ sig) (Vn m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v3) = Vn m c (Proc.devRef .tc main_v3)
      ∧ s.mem ((c : Thread nD τ).loc main_arg0) = m ((c : Thread nD τ).loc main_arg0)
      ∧ s.mem ((c : Thread nD τ).loc main_arg1) = m ((c : Thread nD τ).loc main_arg1))
    (hfin := fun c s' => by
      rw [show StableHlo.held (c : Thread nD τ) (ucRefs τ sig) (Vn m c) = unscopedBufs c (fun b => Vn m c (Proc.devRef .tc b)) from (Pipeline.unscopedBufs_held c _).symm,
        ub_chain]
      rw [Vn_arg m c main_arg0 (by decide) (by decide) (by decide), Vn_arg m c main_arg1 (by decide) (by decide) (by decide)]
      iintro ⟨⟨Ha0, Ha1, -, -, -, -, Hv3⟩, HSI⟩
      icombine HSI Ha0 gives %h0
      icombine HSI Ha1 gives %h1
      icombine HSI Hv3 gives %h3
      imodintro
      isplitr; · ipureintro; exact ⟨Buf.eq_of_forall_mem_univ h3, Buf.eq_of_forall_mem_univ h0, Buf.eq_of_forall_mem_univ h1⟩
      iexact HSI)
    (hQ := fun _ h => h)

end Cert.Kernel.Hand

end
-- ==== Proof.KI.Body.lean ====
import proofs.«112171_j81698867904771_2_alg».proof.Proof.K.Run
import proofs.«112171_j81698867904771_2_alg».proof.Proof.Gen.KernelIdeal.Launch
import proofs.«112171_j81698867904771_2_alg».proof.Proof.Gen.KernelIdeal.Skeleton
import proofs.«112171_j81698867904771_2_alg».proof.Proof.Gen.KernelIdeal.Loops
import proofs.«112171_j81698867904771_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them

  Two host operations run before the region: the labels are converted to floats (main_v0) and that column is re-laid as a
  row (main_v1). The region's windows read the features twice (a 512-row block, and the whole array), the float labels
  as a 512-row block of the column, and the whole row of labels; its one output is a 512-row block of the loss column. -/

/-- Core c's buffers at launch, as a valuation; -/
abbrev V₀ (c : Dev nD) : Valuation τ sig (Elt F) := fun b => m (c, b)
/-- and when the region is entered: the two host operations have run. -/
abbrev V (c : Dev nD) (b : Ref sig .tc) : Buf (Elt F) ((c : Thread nD τ).loc b) := StableHlo.after hostOps0 (V₀ m c) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the pipeline fetched it there or
    not (the two whole-array windows are fetched at the first point only: their block index never moves). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body on any staging memrefs -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)

set_option maxHeartbeats 4000000 in
/-- What the body's one store leaves in the output's staging memref, as a list of pieces, with the proof that on whole
    staging memrefs — the four inputs' at their contents, the output's at anything — the body runs to the continuation
    holding the inputs' as they were and the output's with that piece written. The two counted loops carry their four
    columns in registers and store nothing: the run goes through each by its invariant, the carried columns after the
    last trip entering the stored value. -/
noncomputable def kernelRun (c : Dev nD) (i : grid0.Coords) (arg1 : Memref sig .tc .vmem S512x128 .f32) (harg1 : arg1.IsWhole) (arg2 : Memref sig .tc .vmem S512x1 .f32) (harg2 : arg2.IsWhole) (arg3 : Memref sig .tc .vmem S8192x128 .f32) (harg3 : arg3.IsWhole) (arg4 : Memref sig .tc .vmem S1x8192 .f32) (harg4 : arg4.IsWhole) (arg5 : Memref sig .tc .vmem S512x1 .f32) (harg5 : arg5.IsWhole)
    (x0 : Vec F S512x128 .f32) (x1 : Vec F S512x1 .f32) (x2 : Vec F S8192x128 .f32) (x3 : Vec F S1x8192 .f32) :
    { L : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L)) -∗ K ⟨⟩))
          ⊢ wp frame (wpE (defs₀ (F := F)) Variants.none c none) E (cc0_kernel i arg1 harg1 arg2 harg2 arg3 harg3 arg4 harg4 arg5 harg5) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The one stored piece is the whole block, so the pieces cover it. -/
theorem cover_out (c : Dev nD) (i : grid0.Coords) (arg1 : Memref sig .tc .vmem S512x128 .f32) (harg1 : arg1.IsWhole) (arg2 : Memref sig .tc .vmem S512x1 .f32) (harg2 : arg2.IsWhole) (arg3 : Memref sig .tc .vmem S8192x128 .f32) (harg3 : arg3.IsWhole) (arg4 : Memref sig .tc .vmem S1x8192 .f32) (harg4 : arg4.IsWhole) (arg5 : Memref sig .tc .vmem S512x1 .f32) (harg5 : arg5.IsWhole)
    (x0 : Vec F S512x128 .f32) (x1 : Vec F S512x1 .f32) (x2 : Vec F S8192x128 .f32) (x3 : Vec F S1x8192 .f32) (y : S512x1.Idx) :
    ∃ pc ∈ (kernelRun c i arg1 harg1 arg2 harg2 arg3 harg3 arg4 harg4 arg5 harg5 x0 x1 x2 x3).1, y ∈ pc.1.set :=
  View.cover_of_tiledL (kernelRun c i arg1 harg1 arg2 harg2 arg3 harg3 arg4 harg4 arg5 harg5 x0 x1 x2 x3).1 S512x1.size (by sl_kernel_rfl) y

/-- What the body leaves in the output's staging buffer. -/
def outBlk (c : Dev nD) (i : grid0.Coords) (arg1 : Memref sig .tc .vmem S512x128 .f32) (harg1 : arg1.IsWhole) (arg2 : Memref sig .tc .vmem S512x1 .f32) (harg2 : arg2.IsWhole) (arg3 : Memref sig .tc .vmem S8192x128 .f32) (harg3 : arg3.IsWhole) (arg4 : Memref sig .tc .vmem S1x8192 .f32) (harg4 : arg4.IsWhole) (arg5 : Memref sig .tc .vmem S512x1 .f32) (harg5 : arg5.IsWhole)
    (x0 : Vec F S512x128 .f32) (x1 : Vec F S512x1 .f32) (x2 : Vec F S8192x128 .f32) (x3 : Vec F S1x8192 .f32) : Vec F S512x1 .f32 :=
  View.canon (kernelRun c i arg1 harg1 arg2 harg2 arg3 harg3 arg4 harg4 arg5 harg5 x0 x1 x2 x3).1

/-! ## The pipeline's proof data -/

/-- The proof data on core c: the arrays as the region finds them; after the body at point t each input's buffer at
    its block and the output's at what the body stored; no invariant beside (the body names no scratch, semaphore or generator);
    nothing owed. The features array is read by two windows: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk c (grid0.coords t) (ms0 t) (hs0 t) (ms1 t) (hs1 t) (ms2 t) (hs2 t) (ms3 t) (hs3 t) (ms4 t) (hs4 t) (iblk m c 0 t) (iblk m c 1 t) (iblk m c 2 t) (iblk m c 3 t)
  Φ _ := (BI.emp : sProp 𝕄)
  q w := match w with
    | ⟨0, _⟩ => fullShare.left
    | ⟨1, _⟩ => fullShare
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t
    = outBlk c (grid0.coords t) (ms0 t) (hs0 t) (ms1 t) (hs1 t) (ms2 t) (hs2 t) (ms3 t) (hs3 t) (ms4 t) (hs4 t) (iblk m c 0 t) (iblk m c 1 t) (iblk m c 2 t) (iblk m c 3 t) := by
  dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' memrefs hold their blocks, so the run applies; the invariant and the core's
    owes pass through unread; the output's buffer ends at the stored piece read back, which covers it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  unfold outBlk
  iintro ⟨HΦ, Ho, ⟨%d0, H0⟩, ⟨%d1, H1⟩, ⟨%d2, H2⟩, ⟨%d3, H3⟩, ⟨%d4, H4⟩⟩
  iapply ((kernelRun c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_eq_canon _ _ _ (cover_out c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
import proofs.«112171_j81698867904771_2_alg».proof.Proof.KI.Body
import Idealize.ShloMosaic.Lib.Pipeline.Regions
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program as three stretches

  Two host operations (the labels as floats; that column as a row), the region, two host operations (a zero; the sum of
  the region's loss column). Between the stretches the core holds its seven arrays whole; the region takes the
  features array in two halves, one for each of the two windows that read it, and gives the halves back. -/

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the arrays through the host operations: that the core owes nothing. -/
abbrev R (c : Dev nD) : sProp 𝕄 := iprop(∃ W, owes (c : Thread nD τ) (0 : CellTallies nD τ sig Unit) W)

/-- The arrays when the region is entered, as a valuation. -/
abbrev V1 (c : Dev nD) : Valuation τ sig (Elt F) := StableHlo.after hostOps0 (V₀ m c)

/-- The loss column after the region: every block written back. -/
def outArr (c : Dev nD) : Buf (Elt F) ((c : Thread nD τ).loc main_v2) := (dats m 0 c).arrAt 4 cfg0.N

/-- The arrays when the region is left: the loss column written, the others as they were. -/
def V2 (c : Dev nD) : Valuation τ sig (Elt F) := Function.update (V1 m c) (Proc.devRef .tc main_v2) (outArr m c)

/-- The arrays at the end. -/
abbrev Vn (c : Dev nD) : Valuation τ sig (Elt F) := StableHlo.after hostOps1 (V2 m c)

omit [FloatOps F] in
/-- The core's seven arrays one by one. -/
theorem ub_chain (c : Dev nD) (Vf : (b : Ref sig .tc) → Buf (Elt F) ((c : Thread nD τ).loc b)) :
    (unscopedBufs c Vf : sProp 𝕄) = iprop((((c : Thread nD τ).loc main_arg0) ↦{fullShare} Vf main_arg0) ∗ (((c : Thread nD τ).loc main_arg1) ↦{fullShare} Vf main_arg1)
      ∗ (((c : Thread nD τ).loc main_v0) ↦{fullShare} Vf main_v0) ∗ (((c : Thread nD τ).loc main_v1) ↦{fullShare} Vf main_v1)
      ∗ (((c : Thread nD τ).loc main_v2) ↦{fullShare} Vf main_v2) ∗ (((c : Thread nD τ).loc main_cst) ↦{fullShare} Vf main_cst)
      ∗ (((c : Thread nD τ).loc main_v3) ↦{fullShare} Vf main_v3)) := by
  unfold unscopedBufs
  exact bigSep_eq_bigSepL_of_eq [main_arg0, main_arg1, main_v0, main_v1, main_v2, main_cst, main_v3] (by decide) (by decide) _

/-- The pipeline's arrays window by window, each at its share. -/
theorem arrays_chain (c : Dev nD) (Fa : (w : Fin cfg0.W) → Buf (Elt F) ((cfg0.win w).arr.view.loc (c : Thread nD τ))) :
    ((dats m 0 c).arrays Fa : sProp 𝕄) = iprop((((c : Thread nD τ).loc main_arg0) ↦{fullShare.left} Fa 0) ∗ (((c : Thread nD τ).loc main_v0) ↦{fullShare} Fa 1)
      ∗ (((c : Thread nD τ).loc main_arg0) ↦{fullShare.right} Fa 2) ∗ (((c : Thread nD τ).loc main_v1) ↦{fullShare} Fa 3)
      ∗ (((c : Thread nD τ).loc main_v2) ↦{fullShare} Fa 4)) := by
  unfold Dat.arrays
  rw [bigSep_W0]
  rw [(arr_whole0 0).set_eq_univ, (arr_whole0 1).set_eq_univ, (arr_whole0 3).set_eq_univ, (arr_whole0 4).set_eq_univ]
  rfl

theorem hostOps0_fresh : ∀ op ∈ (hostOps0 (F := F)), op.fresh = ∅ := by
  intro _ h; (repeat (cases h with | head => rfl | tail _ h => ?_)); exact nomatch h
theorem hostOps1_fresh : ∀ op ∈ (hostOps1 (F := F)), op.fresh = ∅ := by
  intro _ h; (repeat (cases h with | head => rfl | tail _ h => ?_)); exact nomatch h

/-- The first stretch: the two host operations before the region. -/
def seg0 : Pipeline.HostSeg (Name := ℕ) (U := UR sig nD τ) (pcfgs (F := F)) defs₀ 𝒱₀ L lv :=
  Pipeline.HostSeg.ofOps _ _ _ _ _ (ucRefs τ sig) hostOps0 (fun op h => Pipeline.sub_ucRefs op ((List.forall_iff_forall_mem.mp hostOps0_sub) op h))
    hostOps0_fresh (V₀ m) R

/-- The last stretch: the two host operations after the region. -/
def seg1 : Pipeline.HostSeg (Name := ℕ) (U := UR sig nD τ) (pcfgs (F := F)) defs₀ 𝒱₀ L lv :=
  Pipeline.HostSeg.ofOps _ _ _ _ _ (ucRefs τ sig) hostOps1 (fun op h => Pipeline.sub_ucRefs op ((List.forall_iff_forall_mem.mp hostOps1_sub) op h))
    hostOps1_fresh (V2 m) R

theorem V_eq (c : Dev nD) (b : Ref sig .tc) : V m c b = V1 m c (Proc.devRef .tc b) := rfl

theorem A0 (c : Dev nD) : (dats m 0 c).A 0 = V1 m c (Proc.devRef .tc main_arg0) := rfl
theorem A1 (c : Dev nD) : (dats m 0 c).A 1 = V1 m c (Proc.devRef .tc main_v0) := rfl
theorem A2 (c : Dev nD) : (dats m 0 c).A 2 = V1 m c (Proc.devRef .tc main_arg0) := rfl
theorem A3 (c : Dev nD) : (dats m 0 c).A 3 = V1 m c (Proc.devRef .tc main_v1) := rfl

theorem V2_v2 (c : Dev nD) : V2 m c (Proc.devRef .tc main_v2) = outArr m c := Function.update_self ..
theorem V2_ne (c : Dev nD) (b : Ref sig .tc) (hb : b ≠ main_v2) : V2 m c (Proc.devRef .tc b) = V1 m c (Proc.devRef .tc b) :=
  Function.update_of_ne (fun e => hb (Proc.devRef_injective _ e)) ..

set_option backward.isDefEq.respectTransparency.types false in
/-- The region: entered with the seven arrays whole, the features array split between its two windows; left with the
    halves joined again and the loss column at what the write-backs made it. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (ucRefs τ sig) (V1 m c) ∗ R c)
  post c := iprop(StableHlo.held (c : Thread nD τ) (ucRefs τ sig) (V2 m c) ∗ R c)
  X c := iprop(emp)
  Y c := iprop(emp)
  Z c := iprop((((c : Thread nD τ).loc main_arg1) ↦{fullShare} V m c main_arg1) ∗ (((c : Thread nD τ).loc main_cst) ↦{fullShare} V m c main_cst)
      ∗ (((c : Thread nD τ).loc main_v3) ↦{fullShare} V m c main_v3))
  hentry c := by
    rw [show StableHlo.held (c : Thread nD τ) (ucRefs τ sig) (V1 m c) = unscopedBufs c (V m c) from (Pipeline.unscopedBufs_held c _).symm,
      ub_chain, arrays_chain]
    iintro ⟨⟨⟨Ha0, Ha1, Hv0, Hv1, Hv2, Hcst, Hv3⟩, HO⟩, -, -⟩
    ihave Hs := (pointsTo_share (PosShare.mem_left_op_right fullShare)).1 $$ Ha0
    icases Hs with ⟨HL, HR⟩
    imodintro
    isplitl [HL Hv0 HR Hv1 Hv2]
    · isplitl [HL]; · iexact HL
      isplitl [Hv0]; · iexact Hv0
      isplitl [HR]; · iexact HR
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Ha1]; · iexact Ha1
    isplitl [Hcst]; · iexact Hcst
    iexact Hv3
  hin c := by
    rw [show (dats m 0 c).Φ 0 = (BI.emp : sProp 𝕄) from rfl]
    iintro -; iempintro
  hout c := by
    rw [Pipeline.ownSems0_none, scopedRest0_eq, show (dats m 0 c).Φ (Fin.last cfg0.N) = (BI.emp : sProp 𝕄) from rfl]
    iintro -
    isplitr; · iempintro
    isplitr <;> iempintro
  hexit c := by
    rw [show StableHlo.held (c : Thread nD τ) (ucRefs τ sig) (V2 m c) = unscopedBufs c (fun b => V2 m c (Proc.devRef .tc b)) from (Pipeline.unscopedBufs_held c _).symm,
      ub_chain, arrays_chain]
    rw [(dats m 0 c).arrAt_in 0 rfl _, (dats m 0 c).arrAt_in 1 rfl _, (dats m 0 c).arrAt_in 2 rfl _, (dats m 0 c).arrAt_in 3 rfl _, A0, A1, A2, A3]
    rw [V2_v2, V2_ne m c main_arg0 (by decide), V2_ne m c main_arg1 (by decide), V2_ne m c main_v0 (by decide), V2_ne m c main_v1 (by decide),
      V2_ne m c main_cst (by decide), V2_ne m c main_v3 (by decide)]
    iintro ⟨⟨HL, Hv0, HR, Hv1, Hv2⟩, HO, -, ⟨Ha1, Hcst, Hv3⟩⟩
    ihave Ha0 := (pointsTo_share (PosShare.mem_left_op_right fullShare)).2 $$ [HL HR]
    · isplitl [HL] <;> iassumption
    imodintro
    isplitr [HO]
    · isplitl [Ha0]; · iexact Ha0
      isplitl [Ha1]; · iexact Ha1
      isplitl [Hv0]; · iexact Hv0
      isplitl [Hv1]; · iexact Hv1
      isplitl [Hv2]; · iexact Hv2
      isplitl [Hcst]; · iexact Hcst
      iexact Hv3
    · unfold Pipeline.Dat.owesAt Pipeline.owesWithin
      icases HO with ⟨%W, -, HO⟩; iexists W; iexact HO

/-- The program as the list of the three. -/
abbrev segs : List (Pipeline.Seg (pcfgs (F := F)) adm (dats m) () defs₀ 𝒱₀ L lv) := [.host (seg0 m), .region (reg0 m), .host (seg1 m)]

/-- What a final state is read for: the result at the last host operation's value, the two arguments as launched. -/
def QC : PUnit × MemSt nD τ sig (Elt F) → Prop := fun r =>
  ∀ c : Dev nD, r.2.mem ((c : Thread nD τ).loc main_v3) = Vn m c (Proc.devRef .tc main_v3)
    ∧ r.2.mem ((c : Thread nD τ).loc main_arg0) = m ((c : Thread nD τ).loc main_arg0)
    ∧ r.2.mem ((c : Thread nD τ).loc main_arg1) = m ((c : Thread nD τ).loc main_arg1)

/-- No host operation writes an argument. -/
theorem ops0_keep (b : Ref sig .tc) (hb : b ≠ main_v0 ∧ b ≠ main_v1) : ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.unary_writes, StableHlo.reshape_writes, Finset.mem_singleton] <;>
    exact StableHlo.devRef_ne_of_ne ‹_›
theorem ops1_keep (b : Ref sig .tc) (hb : b ≠ main_cst ∧ b ≠ main_v3) : ∀ op ∈ (hostOps1 (F := F)), Proc.devRef .tc b ∉ op.writes := by
  obtain ⟨h0, h1⟩ := hb
  intro op hop
  simp only [List.mem_cons, List.mem_nil_iff, or_false] at hop
  rcases hop with rfl | rfl <;>
    simp only [StableHlo.nullary_writes, StableHlo.binary_writes, Finset.mem_singleton] <;>
    exact StableHlo.devRef_ne_of_ne ‹_›

theorem Vn_arg (c : Dev nD) (b : Ref sig .tc) (h0 : b ≠ main_v0 ∧ b ≠ main_v1) (h1 : b ≠ main_cst ∧ b ≠ main_v3) (h2 : b ≠ main_v2) :
    Vn m c (Proc.devRef .tc b) = m ((c : Thread nD τ).loc b) :=
  (StableHlo.after_of_forall_not_mem (b := Proc.devRef .tc b) hostOps1 (V2 m c) (ops1_keep b h1)).trans
    ((V2_ne m c b h2).trans (StableHlo.after_of_forall_not_mem (b := Proc.devRef .tc b) hostOps0 (V₀ m c) (ops0_keep b h0)))

set_option backward.isDefEq.respectTransparency.types false in
/-- At the compiled mesh, for any float values, from any memory with zero counters: every weakly fair execution of the
    program terminates, nothing faulting, with the result at the sum of the loss column the write-backs made and both
    arguments as they were. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m c) ∗ R c))
    (Tₙ := fun c => StableHlo.held (c : Thread nD τ) (ucRefs τ sig) (Vn m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v3) = Vn m c (Proc.devRef .tc main_v3)
      ∧ s.mem ((c : Thread nD τ).loc main_arg0) = m ((c : Thread nD τ).loc main_arg0)
      ∧ s.mem ((c : Thread nD τ).loc main_arg1) = m ((c : Thread nD τ).loc main_arg1))
    (hfin := fun c s' => by
      rw [show StableHlo.held (c : Thread nD τ) (ucRefs τ sig) (Vn m c) = unscopedBufs c (fun b => Vn m c (Proc.devRef .tc b)) from (Pipeline.unscopedBufs_held c _).symm,
        ub_chain]
      rw [Vn_arg m c main_arg0 (by decide) (by decide) (by decide), Vn_arg m c main_arg1 (by decide) (by decide) (by decide)]
      iintro ⟨⟨Ha0, Ha1, -, -, -, -, Hv3⟩, HSI⟩
      icombine HSI Ha0 gives %h0
      icombine HSI Ha1 gives %h1
      icombine HSI Hv3 gives %h3
      imodintro
      isplitr; · ipureintro; exact ⟨Buf.eq_of_forall_mem_univ h3, Buf.eq_of_forall_mem_univ h0, Buf.eq_of_forall_mem_univ h1⟩
      iexact HSI)
    (hQ := fun _ h => h)

end Cert.KernelIdeal.Hand

end
-- ==== Proof.LibRowReduce.lean ====
/-
  Reductions along the rows of a matrix kept as a column, and the two spreads of a column and of a row over a matrix, read
  at an index — generic in the two extents.

  For an [A, B] array x:
  * a lane reduction by maximum (minimum) from the word w, re-laid as an [A, 1] column, holds at (p, u) the fold of max
    (min) from the value of w over the B entries x(p, ·) (`rowMax`, `rowMin`); a lane reduction by addition from the
    zero word holds their sum (`rowSum`);
  * a [1, B] row spread over the A rows of an [A, B] array holds at (p, l) the row's entry l (`broadcastTo_1b_ab_apply`).

  Nothing here depends on a program.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx
import Idealize.ShloMosaic.Lib.ValueLayout

noncomputable section

open scoped BigOperators

namespace Cert.Lib.RowReduce

open Idealize.ShloMosaic Idealize.ShloMosaic.ValueIdx

variable {A B : Nat}

/-- The index of row p with l inserted on the second axis is (p, l). -/
theorem lift_row (h : (⟨2, ![A, B]⟩ : Shape).Reduces [1] ⟨1, ![A]⟩) (p : Fin A) (l : Fin B) :
    h.lift (ix1 p) l = ix2 p l :=
  funext fun ax => Fin.ext (by match ax with | ⟨0, _⟩ => rfl | ⟨1, _⟩ => rfl)

/-- An [A] vector re-laid as an [A, 1] column reads at (p, u) the vector's entry p. -/
theorem col_apply {α : Type} (x : (⟨1, ![A]⟩ : Shape).Idx → α) (hc : (⟨1, ![A]⟩ : Shape).ShapeCasts ⟨2, ![A, 1]⟩)
    (p : Fin A) (u : Fin 1) : shapeCast ⟨2, ![A, 1]⟩ x hc (ix2 p u) = x (ix1 p) :=
  shapeCast_apply x hc _ _ (by
    have hu : u.val = 0 := by omega
    rw [Shape.rowMajor_val_two, Shape.rowMajor_val_one]
    show p.val = p.val * 1 + u.val
    omega)

/-- The maximum along each row, kept as a column. -/
theorem rowMax (x : FVec Ideal ⟨2, ![A, B]⟩ .f32) (w : BitVec 32)
    (h : (⟨2, ![A, B]⟩ : Shape).Reduces [1] ⟨1, ![A]⟩) (hφ : FKind.Formats .f32)
    (hacc : w = FKind.maximumf.neutral .f32 hφ) (hc : (⟨1, ![A]⟩ : Shape).ShapeCasts ⟨2, ![A, 1]⟩) (p : Fin A) (u : Fin 1) :
    shapeCast ⟨2, ![A, 1]⟩ (multiReduction .maximumf [1] ⟨1, ![A]⟩ x w h hφ hacc) hc (ix2 p u)
      = (Finset.univ : Finset (Fin B)).fold max (Ideal.ofBits .f32 w) (fun l => x (ix2 p l)) := by
  rw [col_apply]
  refine (Ideal.multiReduction_maximumf_single x w h hφ hacc (ix1 p)).trans ?_
  exact congrArg (fun g => (Finset.univ : Finset (Fin B)).fold max (Ideal.ofBits .f32 w) g) (funext fun l => congrArg x (lift_row h p l))

/-- The minimum along each row, kept as a column. -/
theorem rowMin (x : FVec Ideal ⟨2, ![A, B]⟩ .f32) (w : BitVec 32)
    (h : (⟨2, ![A, B]⟩ : Shape).Reduces [1] ⟨1, ![A]⟩) (hφ : FKind.Formats .f32)
    (hacc : w = FKind.minimumf.neutral .f32 hφ) (hc : (⟨1, ![A]⟩ : Shape).ShapeCasts ⟨2, ![A, 1]⟩) (p : Fin A) (u : Fin 1) :
    shapeCast ⟨2, ![A, 1]⟩ (multiReduction .minimumf [1] ⟨1, ![A]⟩ x w h hφ hacc) hc (ix2 p u)
      = (Finset.univ : Finset (Fin B)).fold min (Ideal.ofBits .f32 w) (fun l => x (ix2 p l)) := by
  rw [col_apply]
  refine ((multiReduction_minimumf_eq_fold x w h hφ hacc (ix1 p)).trans (h.fold_filter_drop_single _ _ x (ix1 p))).trans ?_
  exact congrArg (fun g => (Finset.univ : Finset (Fin B)).fold min (Ideal.ofBits .f32 w) g) (funext fun l => congrArg x (lift_row h p l))

/-- The sum along each row, kept as a column. -/
theorem rowSum (x : FVec Ideal ⟨2, ![A, B]⟩ .f32) (w : BitVec 32)
    (h : (⟨2, ![A, B]⟩ : Shape).Reduces [1] ⟨1, ![A]⟩) (hφ : FKind.Formats .f32)
    (hacc : w = FKind.add.neutral .f32 hφ) (hc : (⟨1, ![A]⟩ : Shape).ShapeCasts ⟨2, ![A, 1]⟩) (p : Fin A) (u : Fin 1) :
    shapeCast ⟨2, ![A, 1]⟩ (multiReduction .add [1] ⟨1, ![A]⟩ x w h hφ hacc) hc (ix2 p u) = ∑ l : Fin B, x (ix2 p l) := by
  rw [col_apply]
  refine (Ideal.multiReduction_add_single x w h hφ hacc (ix1 p)).trans ?_
  exact Finset.sum_congr rfl fun l _ => congrArg x (lift_row h p l)

variable {α : Type}

/-- A [1, B] row spread over [A, B] reads at (p, l) the row's entry l. -/
theorem broadcastTo_1b_ab_apply (v : (⟨2, ![1, B]⟩ : Shape).Idx → α) (h : (⟨2, ![1, B]⟩ : Shape).Broadcasts ⟨2, ![A, B]⟩)
    (p : Fin A) (l : Fin B) : broadcastTo ⟨2, ![A, B]⟩ v h (ix2 p l) = v (ix2 (0 : Fin 1) l) := by
  refine broadcastTo_apply v h (ix2 p l) (ix2 (0 : Fin 1) l) fun ax => ?_
  match ax with
  | ⟨0, _⟩ => rfl
  | ⟨1, _⟩ =>
    show l.val = if B = 1 then 0 else l.val
    split
    · have := l.isLt; omega
    · rfl

/-- An [A, 1] column spread over [A, B] reads at (p, l) the column's entry p. -/
theorem broadcastTo_a1_ab_apply (v : (⟨2, ![A, 1]⟩ : Shape).Idx → α) (h : (⟨2, ![A, 1]⟩ : Shape).Broadcasts ⟨2, ![A, B]⟩)
    (p : Fin A) (l : Fin B) : broadcastTo ⟨2, ![A, B]⟩ v h (ix2 p l) = v (ix2 p (0 : Fin 1)) := by
  refine broadcastTo_apply v h (ix2 p l) (ix2 p (0 : Fin 1)) fun ax => ?_
  match ax with
  | ⟨0, _⟩ =>
    show p.val = if A = 1 then 0 else p.val
    split
    · have := p.isLt; omega
    · rfl
  | ⟨1, _⟩ => rfl

end Cert.Lib.RowReduce

end
-- ==== Proof.LibContract.lean ====
/-
  A contraction over ONE axis, read as a sum over that axis's coordinate.

  At the ideal values a matrix product, whatever its dimension numbers, is at each output index j the sum over the
  contraction index set of  l (lhsIdx j q) * r (rhsIdx j q).  When exactly one axis of each operand is contracted,
  of extent K, the contraction index is one coordinate k : Fin K, and the sum is over k of the operands at the two
  indices that q = k gives. `single_sum` states this for any dimension numbers; the operand indices at each k are
  supplied by the caller (they are read off the dimension numbers coordinate by coordinate).
  `matmul_zero_single` and `dotGeneral_single` are the same for a product into the zero accumulator and for the
  host's product.
-/
import Idealize.ShloMosaic.Lib.ValueIdx
import Idealize.ShloMosaic.PureOps.Ideal.Laws

noncomputable section

open scoped BigOperators

namespace Cert.Lib.Contract

open Idealize.ShloMosaic Idealize.ShloMosaic.ValueIdx

variable {sl sr so : Shape}

/-- The contraction sum over one contracted axis of extent K, re-indexed through the axis's coordinate. -/
theorem single_sum (d : DotDims sl sr so) (K : ℕ) (hr : d.contr.rank = 1) (hs : d.contr.size ⟨0, by omega⟩ = K)
    (l : sl.Idx → EReal) (r : sr.Idx → EReal) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    ∑ q : d.contr.Idx, l (d.lhsIdx j q) * r (d.rhsIdx j q) = ∑ k : Fin K, l (Li k) * r (Ri k) := by
  rw [← Equiv.sum_comp (contrEquiv1 d K hr hs).symm]
  refine Finset.sum_congr rfl fun k _ => ?_
  have hk := contrEquiv1_symm_val d K hr hs k
  rw [hl k _ hk, hrr k _ hk]

/-- A kernel's matrix product into the zero accumulator, one axis contracted, read at an output index. -/
theorem matmul_zero_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    matmul d prec l r (constant so .f32 0x00000000#32) j = ∑ k : Fin K, l (Li k) * r (Ri k) :=
  (Ideal.matmul_constant_zero_apply d prec l r j).trans (single_sum d K hr hs l r j Li Ri hl hrr)

/-- The host's matrix product, one axis contracted, read at an output index. -/
theorem dotGeneral_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    Host.dotGeneral d prec l r j = ∑ k : Fin K, l (Li k) * r (Ri k) :=
  (Ideal.dotGeneral_apply d prec .single l r j).trans (single_sum d K hr hs l r j Li Ri hl hrr)

end Cert.Lib.Contract

end
-- ==== Proof.LibRangeFold.lean ====
/-
  Folds over consecutive ranges of natural numbers, cut into tiles — generic in the extents and in the order or monoid.

  For a function f on the natural numbers:
  * the supremum (infimum, sum) over J tiles of T consecutive arguments is the supremum (infimum, sum) over the first J·T
    arguments (`sup_tiles`, `inf_tiles`, `sum_tiles`): every argument below J·T lies in exactly one tile, at j / T, j % T;
  * a quantity that starts at a₀ and takes up one more term per step is a₀ joined with (met with, added to) the terms so
    far (`acc_sup`, `acc_inf`, `acc_sum`);
  * a fold over the arguments below n of a function given on Fin n and continued by the neutral element is the fold over
    Fin n (`sup_range_dite`, `inf_range_dite`, `sum_range_dite`).

  Nothing here depends on a program.
-/
import Mathlib.Order.CompleteLattice.Finset
import Mathlib.Algebra.BigOperators.Fin
import Mathlib.Algebra.BigOperators.Intervals
import Mathlib.Tactic.Ring
import Mathlib.Tactic.Linarith

namespace Cert.Lib.RangeFold

open Finset

variable {α : Type*}

/-- J tiles of T consecutive arguments exhaust the arguments below J·T: the suprema agree. -/
theorem sup_tiles [SemilatticeSup α] [OrderBot α] (J T : ℕ) (f : ℕ → α) :
    (range J).sup (fun c => (range T).sup (fun l => f (c * T + l))) = (range (J * T)).sup f := by
  apply le_antisymm
  · refine Finset.sup_le fun c hc => Finset.sup_le fun l hl => Finset.le_sup (f := f) ?_
    rw [mem_range] at hc hl ⊢
    calc c * T + l < c * T + T := by omega
      _ = (c + 1) * T := by ring
      _ ≤ J * T := Nat.mul_le_mul_right T hc
  · refine Finset.sup_le fun j hj => ?_
    rw [mem_range] at hj
    have hT : 0 < T := by
      rcases Nat.eq_zero_or_pos T with h | h
      · subst h; simp at hj
      · exact h
    have hc : j / T < J := (Nat.div_lt_iff_lt_mul hT).mpr hj
    have hl : j % T < T := Nat.mod_lt _ hT
    have e : j / T * T + j % T = j := by rw [Nat.mul_comm]; exact Nat.div_add_mod j T
    calc f j = f (j / T * T + j % T) := by rw [e]
      _ ≤ (range T).sup (fun l => f (j / T * T + l)) := Finset.le_sup (f := fun l => f (j / T * T + l)) (mem_range.mpr hl)
      _ ≤ _ := Finset.le_sup (f := fun c => (range T).sup (fun l => f (c * T + l))) (mem_range.mpr hc)

/-- The same for infima. -/
theorem inf_tiles [SemilatticeInf α] [OrderTop α] (J T : ℕ) (f : ℕ → α) :
    (range J).inf (fun c => (range T).inf (fun l => f (c * T + l))) = (range (J * T)).inf f :=
  sup_tiles (α := αᵒᵈ) J T f

/-- The same for sums. -/
theorem sum_tiles [AddCommMonoid α] (J T : ℕ) (f : ℕ → α) :
    ∑ c ∈ range J, ∑ l ∈ range T, f (c * T + l) = ∑ j ∈ range (J * T), f j := by
  induction J with
  | zero => simp
  | succ J ih =>
    rw [Finset.sum_range_succ, ih, Nat.succ_mul, Finset.sum_range_add]

/-- A quantity starting at a 0 and joined with one more term at each of the first N steps is, after n ≤ N steps, a 0
    joined with the supremum of the terms so far. -/
theorem acc_sup [SemilatticeSup α] [OrderBot α] (N : ℕ) (t a : ℕ → α) (hs : ∀ k, k < N → a (k + 1) = a k ⊔ t k) :
    ∀ n, n ≤ N → a n = a 0 ⊔ (range n).sup t := by
  intro n
  induction n with
  | zero => intro _; simp
  | succ n ih =>
    intro hn
    rw [hs n (by omega), ih (by omega), Finset.range_add_one, Finset.sup_insert, sup_assoc, sup_comm (t n)]

/-- The same for infima. -/
theorem acc_inf [SemilatticeInf α] [OrderTop α] (N : ℕ) (t a : ℕ → α) (hs : ∀ k, k < N → a (k + 1) = a k ⊓ t k) :
    ∀ n, n ≤ N → a n = a 0 ⊓ (range n).inf t :=
  acc_sup (α := αᵒᵈ) N t a hs

/-- The same for sums. -/
theorem acc_sum [AddCommMonoid α] (N : ℕ) (t a : ℕ → α) (hs : ∀ k, k < N → a (k + 1) = a k + t k) :
    ∀ n, n ≤ N → a n = a 0 + ∑ k ∈ range n, t k := by
  intro n
  induction n with
  | zero => intro _; simp
  | succ n ih =>
    intro hn
    rw [hs n (by omega), ih (by omega), Finset.sum_range_succ, add_assoc]

/-- The supremum over the arguments below n of a function given on Fin n (and ⊥ beyond) is its supremum over Fin n. -/
theorem sup_range_dite [SemilatticeSup α] [OrderBot α] (n : ℕ) (g : Fin n → α) :
    (range n).sup (fun j => if h : j < n then g ⟨j, h⟩ else ⊥) = univ.sup g := by
  apply le_antisymm
  · refine Finset.sup_le fun j hj => ?_
    rw [dif_pos (mem_range.mp hj)]
    exact Finset.le_sup (mem_univ _)
  · refine Finset.sup_le fun i _ => ?_
    have := Finset.le_sup (f := fun j => if h : j < n then g ⟨j, h⟩ else ⊥) (mem_range.mpr i.isLt)
    simpa [dif_pos i.isLt] using this

/-- The same for infima. -/
theorem inf_range_dite [SemilatticeInf α] [OrderTop α] (n : ℕ) (g : Fin n → α) :
    (range n).inf (fun j => if h : j < n then g ⟨j, h⟩ else ⊤) = univ.inf g :=
  sup_range_dite (α := αᵒᵈ) n g

/-- The same for sums. -/
theorem sum_range_dite [AddCommMonoid α] (n : ℕ) (g : Fin n → α) :
    ∑ j ∈ range n, (if h : j < n then g ⟨j, h⟩ else 0) = ∑ i : Fin n, g i := by
  rw [← Fin.sum_univ_eq_sum_range (fun j => if h : j < n then g ⟨j, h⟩ else 0) n]
  exact Finset.sum_congr rfl fun i _ => by rw [dif_pos i.isLt]

end Cert.Lib.RangeFold
-- ==== Proof.RowLoss.lean ====
/-
  The loss of one anchor row, as a function of the row's similarities s(j) and squared label distances q(j) to all N
  columns — flat, every reduction over all the columns at once — and the same loss computed J tiles of T columns at a
  time, two passes over the tiles, each pass carrying four running quantities. The two agree: every column lies in exactly
  one tile, and minimum, maximum, sum and "some column is selected" do not care how the columns are grouped.

  Pass 1 carries the smallest similarity among the positive pairs (same label, similarity below the self-similarity bound),
  the largest among the negative pairs (different label), and whether there is any pair of either kind, kept as the
  maximum of ones and zeros. Pass 2 mines the hard pairs — negatives within the margin of the smallest positive, positives
  within the margin of the largest negative — sums their exponential weights and keeps the same two flags for them.
-/
import Idealize.ShloMosaic.PureOps.Ideal
import Idealize.ShloMosaic.PureOps.Ideal.Laws
import proofs.«112171_j81698867904771_2_alg».proof.Proof.LibRangeFold

noncomputable section

open scoped BigOperators

namespace Cert.RowLoss

open Idealize.ShloMosaic Finset Cert.Lib.RangeFold

/-- The extended real a 32-bit float word denotes. -/
abbrev W (w : BitVec 32) : EReal := Ideal.ofBits .f32 w

theorem W_zero : W 0x00000000#32 = 0 := Ideal.ofBits_zero_f32
theorem W_pinf : W 0x7F800000#32 = ⊤ := by simp [W, Ideal.ofBits, Ideal.ieee]
theorem W_ninf : W 0xFF800000#32 = ⊥ := by simp [W, Ideal.ofBits, Ideal.ieee]
theorem W_one : W 0x3F800000#32 = 1 := by simp [W, Ideal.ofBits, Ideal.ieee, -EReal.coe_mul]; norm_num

/-! ## One pair (anchor, column) -/

/-- A positive pair: the labels agree (squared distance at most ε) and the column is not the anchor itself. -/
def P0 (s q : EReal) : BitVec 1 := IntOp.andi (Ideal.cmp .ole q (W 0x3727C5AC#32)) (Ideal.cmp .olt s (W 0x3F7FFF58#32))
/-- A negative pair: the labels differ. -/
def N0 (q : EReal) : BitVec 1 := Ideal.cmp .ogt q (W 0x3727C5AC#32)
/-- A hard negative: within the margin above the smallest positive similarity mp. -/
def Nm (s q mp : EReal) : BitVec 1 := IntOp.andi (N0 q) (Ideal.cmp .ogt (s + W 0x3DCCCCCD#32) mp)
/-- A hard positive: within the margin below the largest negative similarity mn. -/
def Pm (s q mn : EReal) : BitVec 1 := IntOp.andi (P0 s q) (Ideal.cmp .olt (s - W 0x3DCCCCCD#32) mn)
/-- The weight of a hard positive, exp(−2(s − ½)), and of a hard negative, exp(40(s − ½)). -/
def ePos (s : EReal) : EReal := Ideal.exp (W 0xC0000000#32 * (s - W 0x3F000000#32))
def eNeg (s : EReal) : EReal := Ideal.exp (W 0x42200000#32 * (s - W 0x3F000000#32))
/-- A selection as the number one or zero. -/
def flag (c : BitVec 1) : EReal := Scalar.select c (W 0x3F800000#32) (W 0x00000000#32)

/-! ## The row's loss, every reduction over all N columns -/

section Flat

variable {N : ℕ} (s q : Fin N → EReal)

def minPos : EReal := univ.fold min (W 0x7F800000#32) (fun j => Scalar.select (P0 (s j) (q j)) (s j) (W 0x7F800000#32))
def maxNeg : EReal := univ.fold max (W 0xFF800000#32) (fun j => Scalar.select (N0 (q j)) (s j) (W 0xFF800000#32))
/-- Some column is selected. -/
def anyB (g : Fin N → BitVec 1) : BitVec 1 := univ.fold IntOp.ori 0#1 g
def posSum : EReal := W 0x00000000#32 + ∑ j, Scalar.select (Pm (s j) (q j) (maxNeg s q)) (ePos (s j)) (W 0x00000000#32)
def negSum : EReal := W 0x00000000#32 + ∑ j, Scalar.select (Nm (s j) (q j) (minPos s q)) (eNeg (s j)) (W 0x00000000#32)
def loss : EReal := W 0x3F000000#32 * Ideal.log1p (posSum s q) + W 0x3CCCCCCD#32 * Ideal.log1p (negSum s q)
def valid : BitVec 1 :=
  IntOp.andi (IntOp.andi (IntOp.andi (anyB fun j => P0 (s j) (q j)) (anyB fun j => N0 (q j)))
    (anyB fun j => Nm (s j) (q j) (minPos s q))) (anyB fun j => Pm (s j) (q j) (maxNeg s q))
/-- The row's loss: zero unless the row has a positive, a negative, a hard negative and a hard positive. -/
def rowLoss : EReal := Scalar.select (valid s q) (loss s q) (W 0x00000000#32)

end Flat

/-! ## Folds over Fin (J·T), tile by tile -/

/-- Column l of tile k. -/
def tix {J T : ℕ} (k : Fin J) (l : Fin T) : Fin (J * T) :=
  ⟨k.val * T + l.val, by
    have hk := k.isLt; have hl := l.isLt
    calc k.val * T + l.val < k.val * T + T := by omega
      _ = (k.val + 1) * T := by ring
      _ ≤ J * T := Nat.mul_le_mul_right T hk⟩

theorem tix_surj {J T : ℕ} (j : Fin (J * T)) : ∃ (k : Fin J) (l : Fin T), tix k l = j := by
  have hT : 0 < T := by
    rcases Nat.eq_zero_or_pos T with h | h
    · subst h; exact absurd j.isLt (by simp)
    · exact h
  refine ⟨⟨j.val / T, (Nat.div_lt_iff_lt_mul hT).mpr j.isLt⟩, ⟨j.val % T, Nat.mod_lt _ hT⟩, Fin.ext ?_⟩
  show j.val / T * T + j.val % T = j.val
  rw [Nat.mul_comm]; exact Nat.div_add_mod j.val T

variable {α : Type*}

theorem sup_fin_tiles [SemilatticeSup α] [OrderBot α] (J T : ℕ) (g : Fin (J * T) → α) :
    univ.sup (fun k : Fin J => univ.sup (fun l : Fin T => g (tix k l))) = univ.sup g := by
  apply le_antisymm
  · exact Finset.sup_le fun k _ => Finset.sup_le fun l _ => Finset.le_sup (mem_univ _)
  · refine Finset.sup_le fun j _ => ?_
    obtain ⟨k, l, rfl⟩ := tix_surj j
    exact (Finset.le_sup (f := fun l => g (tix k l)) (mem_univ l)).trans
      (Finset.le_sup (f := fun k : Fin J => univ.sup (fun l : Fin T => g (tix k l))) (mem_univ k))

theorem inf_fin_tiles [SemilatticeInf α] [OrderTop α] (J T : ℕ) (g : Fin (J * T) → α) :
    univ.inf (fun k : Fin J => univ.inf (fun l : Fin T => g (tix k l))) = univ.inf g :=
  sup_fin_tiles (α := αᵒᵈ) J T g

theorem sum_fin_tiles [AddCommMonoid α] (J T : ℕ) (g : Fin (J * T) → α) :
    ∑ k : Fin J, ∑ l : Fin T, g (tix k l) = ∑ j, g j := by
  rw [← Fintype.sum_prod_type' (fun k l => g (tix k l))]
  refine Fintype.sum_equiv finProdFinEquiv _ _ fun p => congrArg g (Fin.ext ?_)
  show p.1.val * T + p.2.val = p.2.val + T * p.1.val
  rw [Nat.mul_comm, Nat.add_comm]

/-- Running joins over the J tiles, the steps indexed by Fin J. -/
theorem acc_sup_fin [SemilatticeSup α] [OrderBot α] (J : ℕ) (t : Fin J → α) (a : ℕ → α)
    (hs : ∀ k : Fin J, a (k.val + 1) = a k.val ⊔ t k) : a J = a 0 ⊔ univ.sup t := by
  have h := acc_sup J (fun k => if h : k < J then t ⟨k, h⟩ else ⊥) a (fun k hk => by rw [hs ⟨k, hk⟩, dif_pos hk]) J le_rfl
  rw [h, sup_range_dite]

theorem acc_inf_fin [SemilatticeInf α] [OrderTop α] (J : ℕ) (t : Fin J → α) (a : ℕ → α)
    (hs : ∀ k : Fin J, a (k.val + 1) = a k.val ⊓ t k) : a J = a 0 ⊓ univ.inf t :=
  acc_sup_fin (α := αᵒᵈ) J t a hs

theorem acc_sum_fin [AddCommMonoid α] (J : ℕ) (t : Fin J → α) (a : ℕ → α)
    (hs : ∀ k : Fin J, a (k.val + 1) = a k.val + t k) : a J = a 0 + ∑ k, t k := by
  have h := acc_sum J (fun k => if h : k < J then t ⟨k, h⟩ else 0) a (fun k hk => by rw [hs ⟨k, hk⟩, dif_pos hk]) J le_rfl
  rw [h, sum_range_dite]

/-- A fold of max from b is b joined with the supremum. -/
theorem fold_max_eq {ι : Type*} (S : Finset ι) (b : EReal) (g : ι → EReal) : S.fold max b g = b ⊔ S.sup g := by
  classical
  induction S using Finset.induction_on with
  | empty => simp
  | insert a S ha ih => rw [Finset.fold_insert ha, ih, Finset.sup_insert]; exact max_left_comm _ _ _

theorem fold_min_eq {ι : Type*} (S : Finset ι) (b : EReal) (g : ι → EReal) : S.fold min b g = b ⊓ S.inf g := by
  classical
  induction S using Finset.induction_on with
  | empty => simp
  | insert a S ha ih => rw [Finset.fold_insert ha, ih, Finset.inf_insert]; exact min_left_comm _ _ _

/-! ## The flags -/

theorem bv1_ext : ∀ a b : BitVec 1, (a = 1#1 ↔ b = 1#1) → a = b := by decide

theorem anyB_eq_one_iff {N : ℕ} (g : Fin N → BitVec 1) : anyB g = 1#1 ↔ ∃ j, g j = 1#1 := by
  unfold anyB
  have : ∀ S : Finset (Fin N), S.fold IntOp.ori 0#1 g = 1#1 ↔ ∃ j ∈ S, g j = 1#1 := by
    intro S
    classical
    induction S using Finset.induction_on with
    | empty => simp
    | insert a S ha ih =>
      rw [Finset.fold_insert ha]
      have key : ∀ x y : BitVec 1, IntOp.ori x y = 1#1 ↔ (x = 1#1 ∨ y = 1#1) := by decide
      rw [key, ih]
      constructor
      · rintro (h | ⟨j, hj, h⟩)
        · exact ⟨a, Finset.mem_insert_self _ _, h⟩
        · exact ⟨j, Finset.mem_insert_of_mem hj, h⟩
      · rintro ⟨j, hj, h⟩
        rcases Finset.mem_insert.mp hj with rfl | hj
        · exact Or.inl h
        · exact Or.inr ⟨j, hj, h⟩
  rw [this]; simp

theorem flag_pos (c : BitVec 1) : 0 < flag c ↔ c = 1#1 := by
  unfold flag Scalar.select
  split
  · next h => rw [W_one]; exact ⟨fun _ => h, fun _ => by norm_num⟩
  · next h => rw [W_zero]; exact ⟨fun h0 => absurd h0 (lt_irrefl _), fun h1 => absurd h1 h⟩

theorem cmp_ogt_eq_one (x y : EReal) : Ideal.cmp .ogt x y = 1#1 ↔ y < x := by
  unfold Ideal.cmp
  by_cases h : y < x <;> simp [h]

/-- A flag kept as a running maximum of ones and zeros from zero, tile by tile, is positive exactly when some column is
    selected. -/
theorem flag_tiles (J T : ℕ) (cell : Fin (J * T) → BitVec 1) (a : ℕ → EReal) (h0 : a 0 = W 0x00000000#32)
    (hs : ∀ k : Fin J, a (k.val + 1) = max (a k.val) (univ.fold max (W 0xFF800000#32) (fun l : Fin T => flag (cell (tix k l))))) :
    Ideal.cmp .ogt (a J) (W 0x00000000#32) = anyB cell := by
  apply bv1_ext
  rw [cmp_ogt_eq_one, anyB_eq_one_iff, W_zero]
  have hJ : a J = 0 ⊔ univ.sup (fun j => flag (cell j)) := by
    have h := acc_sup_fin J (fun k => univ.sup (fun l : Fin T => flag (cell (tix k l)))) a (fun k => by
      rw [hs k, fold_max_eq, W_ninf, bot_sup_eq])
    rw [h, h0, W_zero, sup_fin_tiles J T (fun j => flag (cell j))]
  rw [hJ, lt_sup_iff]
  constructor
  · rintro (h | h)
    · exact absurd h (lt_irrefl _)
    · obtain ⟨j, -, hj⟩ := Finset.lt_sup_iff.mp h
      exact ⟨j, (flag_pos _).mp hj⟩
  · rintro ⟨j, hj⟩
    exact Or.inr (Finset.lt_sup_iff.mpr ⟨j, mem_univ _, (flag_pos _).mpr hj⟩)

/-! ## Tile by tile, in two passes -/

theorem and_swap : ∀ a b c d : BitVec 1,
    IntOp.andi (IntOp.andi (IntOp.andi a b) c) d = IntOp.andi (IntOp.andi (IntOp.andi a b) d) c := by decide

/-- The two-pass computation over J tiles of T columns gives the row's loss. Pass 1: mp (smallest positive similarity),
    mn (largest negative), hp, hn (flags). Pass 2, with mp J and mn J in hand: ps, ns (the two sums), hps, hns (flags). -/
theorem tiled_eq_flat (J T : ℕ) (s q : Fin (J * T) → EReal) (mp mn hp hn ps ns hps hns : ℕ → EReal)
    (mp0 : mp 0 = W 0x7F800000#32) (mn0 : mn 0 = W 0xFF800000#32) (hp0 : hp 0 = W 0x00000000#32) (hn0 : hn 0 = W 0x00000000#32)
    (ps0 : ps 0 = W 0x00000000#32) (ns0 : ns 0 = W 0x00000000#32) (hps0 : hps 0 = W 0x00000000#32) (hns0 : hns 0 = W 0x00000000#32)
    (mpS : ∀ k : Fin J, mp (k.val + 1) = min (mp k.val) (univ.fold min (W 0x7F800000#32)
      (fun l : Fin T => Scalar.select (P0 (s (tix k l)) (q (tix k l))) (s (tix k l)) (W 0x7F800000#32))))
    (mnS : ∀ k : Fin J, mn (k.val + 1) = max (mn k.val) (univ.fold max (W 0xFF800000#32)
      (fun l : Fin T => Scalar.select (N0 (q (tix k l))) (s (tix k l)) (W 0xFF800000#32))))
    (hpS : ∀ k : Fin J, hp (k.val + 1) = max (hp k.val) (univ.fold max (W 0xFF800000#32)
      (fun l : Fin T => flag (P0 (s (tix k l)) (q (tix k l))))))
    (hnS : ∀ k : Fin J, hn (k.val + 1) = max (hn k.val) (univ.fold max (W 0xFF800000#32)
      (fun l : Fin T => flag (N0 (q (tix k l))))))
    (psS : ∀ k : Fin J, ps (k.val + 1) = ps k.val + ∑ l : Fin T,
      Scalar.select (Pm (s (tix k l)) (q (tix k l)) (mn J)) (ePos (s (tix k l))) (W 0x00000000#32))
    (nsS : ∀ k : Fin J, ns (k.val + 1) = ns k.val + ∑ l : Fin T,
      Scalar.select (Nm (s (tix k l)) (q (tix k l)) (mp J)) (eNeg (s (tix k l))) (W 0x00000000#32))
    (hpsS : ∀ k : Fin J, hps (k.val + 1) = max (hps k.val) (univ.fold max (W 0xFF800000#32)
      (fun l : Fin T => flag (Pm (s (tix k l)) (q (tix k l)) (mn J)))))
    (hnsS : ∀ k : Fin J, hns (k.val + 1) = max (hns k.val) (univ.fold max (W 0xFF800000#32)
      (fun l : Fin T => flag (Nm (s (tix k l)) (q (tix k l)) (mp J))))) :
    Scalar.select (IntOp.andi (IntOp.andi (IntOp.andi (Ideal.cmp .ogt (hp J) (W 0x00000000#32)) (Ideal.cmp .ogt (hn J) (W 0x00000000#32)))
        (Ideal.cmp .ogt (hps J) (W 0x00000000#32))) (Ideal.cmp .ogt (hns J) (W 0x00000000#32)))
      (W 0x3F000000#32 * Ideal.log1p (ps J) + W 0x3CCCCCCD#32 * Ideal.log1p (ns J)) (W 0x00000000#32)
      = rowLoss s q := by
  have hmp : mp J = minPos s q := by
    have h := acc_inf_fin J (fun k => univ.inf (fun l : Fin T => Scalar.select (P0 (s (tix k l)) (q (tix k l))) (s (tix k l)) (W 0x7F800000#32))) mp
      (fun k => by rw [mpS k, fold_min_eq, W_pinf, top_inf_eq])
    rw [h, mp0, inf_fin_tiles J T (fun j => Scalar.select (P0 (s j) (q j)) (s j) (W 0x7F800000#32))]
    unfold minPos; rw [fold_min_eq]
  have hmn : mn J = maxNeg s q := by
    have h := acc_sup_fin J (fun k => univ.sup (fun l : Fin T => Scalar.select (N0 (q (tix k l))) (s (tix k l)) (W 0xFF800000#32))) mn
      (fun k => by rw [mnS k, fold_max_eq, W_ninf, bot_sup_eq])
    rw [h, mn0, sup_fin_tiles J T (fun j => Scalar.select (N0 (q j)) (s j) (W 0xFF800000#32))]
    unfold maxNeg; rw [fold_max_eq]
  have hps' : ps J = posSum s q := by
    rw [acc_sum_fin J _ ps psS, ps0, hmn, sum_fin_tiles J T (fun j => Scalar.select (Pm (s j) (q j) (maxNeg s q)) (ePos (s j)) (W 0x00000000#32))]
    rfl
  have hns' : ns J = negSum s q := by
    rw [acc_sum_fin J _ ns nsS, ns0, hmp, sum_fin_tiles J T (fun j => Scalar.select (Nm (s j) (q j) (minPos s q)) (eNeg (s j)) (W 0x00000000#32))]
    rfl
  rw [flag_tiles J T (fun j => P0 (s j) (q j)) hp hp0 hpS, flag_tiles J T (fun j => N0 (q j)) hn hn0 hnS,
    flag_tiles J T (fun j => Pm (s j) (q j) (mn J)) hps hps0 hpsS, flag_tiles J T (fun j => Nm (s j) (q j) (mp J)) hns hns0 hnsS,
    hps', hns', hmp, hmn, and_swap]
  rfl

end Cert.RowLoss

end
-- ==== Proof.KI.PayRows.lean ====
import proofs.«112171_j81698867904771_2_alg».proof.Proof.Gen.KernelIdeal.Skeleton
import proofs.«112171_j81698867904771_2_alg».proof.Proof.LibRowReduce
import proofs.«112171_j81698867904771_2_alg».proof.Proof.LibContract
import proofs.«112171_j81698867904771_2_alg».proof.Proof.RowLoss
import Idealize.ShloMosaic.Lib.Pipeline.Value
import Idealize.ShloMosaic.Lib.ValueIdx
import Idealize.ShloMosaic.Lib.ValueLayout

/-!
  What each of the body's vector expressions holds at a row p of the 512-row block, on the extended reals: the similarity
  of row p with the columns of a 1024-column tile (a product contracting the 128 features), the squared label distance,
  the four masks, and the four running columns of each pass after one more tile — every reduction along the tile's 1024
  columns read as a fold over them.
-/

set_option maxRecDepth 16384

noncomputable section

open scoped BigOperators

namespace Cert.KernelIdeal.Hand

open Cert.KernelIdeal Cert.KernelIdeal.Gen
open Idealize.ShloMosaic Idealize.ShloMosaic.ValueIdx
open Cert.RowLoss Cert.Lib.RowReduce

abbrev dK : DotDims S512x128 S1024x128 S512x1024 := dot_S512x128_S1024x128_S512x1024_1_1_0_0_n_n

/-- The similarity of block row p with tile column l: the sum over the 128 features of the products. -/
theorem pay2_apply (v0 : Vec Ideal S512x128 .f32) (y : Vec Ideal S1024x128 .f32) (p : Fin 512) (l : Fin 1024) :
    k0_pay2 (F := Ideal) v0 y (ix2 p l) = ∑ k : Fin 128, v0 (ix2 p k) * y (ix2 l k) := by
  unfold k0_pay2
  refine Cert.Lib.Contract.matmul_zero_single dK (some .fp32) 128 rfl rfl v0 y (ix2 p l) (fun k => ix2 p k) (fun k => ix2 l k) ?_ ?_
  · intro k q hq
    refine funext fun a => Fin.ext ?_
    match a with
    | ⟨0, _⟩ =>
      show (dK.lhsIdx (ix2 p l) q 0).val = p.val
      unfold DotDims.lhsIdx
      rw [dif_neg (show ¬(0 : Fin S512x128.rank) ∈ dK.lhsBatch by decide), dif_pos (show (0 : Fin S512x128.rank) ∈ dK.lhsNonContracting by decide)]
      rfl
    | ⟨1, _⟩ => exact (dK.lhsIdx_val_of_single rfl (ix2 p l) q).trans hq
  · intro k q hq
    refine funext fun a => Fin.ext ?_
    match a with
    | ⟨0, _⟩ =>
      show (dK.rhsIdx (ix2 p l) q 0).val = l.val
      unfold DotDims.rhsIdx
      rw [dif_neg (show ¬(0 : Fin S1024x128.rank) ∈ dK.rhsBatch by decide), dif_pos (show (0 : Fin S1024x128.rank) ∈ dK.rhsNonContracting by decide)]
      rfl
    | ⟨1, _⟩ => exact (dK.rhsIdx_val_of_single rfl (ix2 p l) q).trans hq

/-- The squared label distance of block row p and tile column l. -/
theorem pay3_apply (v2 : FVec Ideal S512x1 .f32) (z : Vec Ideal S1x1024 .f32) (p : Fin 512) (l : Fin 1024) :
    k0_pay3 (F := Ideal) v2 z (ix2 p l)
      = (v2 (ix2 p (0 : Fin 1)) - z (ix2 (0 : Fin 1) l)) * (v2 (ix2 p (0 : Fin 1)) - z (ix2 (0 : Fin 1) l)) := by
  unfold k0_pay3
  show (broadcastTo S512x1024 v2 broadcasts_S512x1_S512x1024 (ix2 p l)
      - broadcastTo S512x1024 (shapeCast S1x1024 z shapeCasts_S1x1024_S1x1024) broadcasts_S1x1024_S512x1024 (ix2 p l))
    * (broadcastTo S512x1024 v2 broadcasts_S512x1_S512x1024 (ix2 p l)
      - broadcastTo S512x1024 (shapeCast S1x1024 z shapeCasts_S1x1024_S1x1024) broadcasts_S1x1024_S512x1024 (ix2 p l)) = _
  rw [Cert.Lib.RowReduce.broadcastTo_a1_ab_apply, Cert.Lib.RowReduce.broadcastTo_1b_ab_apply, shapeCast_self]

theorem pay9_eq (v1 : Vec Ideal S512x1 .f32) : k0_pay9 (F := Ideal) v1 = v1 := by
  unfold k0_pay9; exact shapeCast_self _ _

theorem pay14_eq (v0 : Vec Ideal S512x128 .f32) (y : Vec Ideal S1024x128 .f32) : k0_pay14 (F := Ideal) v0 y = k0_pay2 v0 y := rfl
theorem pay15_eq (v1 : Vec Ideal S512x1 .f32) (z : Vec Ideal S1x1024 .f32) : k0_pay15 (F := Ideal) v1 z = k0_pay3 (k0_pay9 v1) z := rfl

/-! ### The masks at (p, l) -/

theorem pay16_apply (v0 : Vec Ideal S512x128 .f32) (v1 : Vec Ideal S512x1 .f32) (y : Vec Ideal S1024x128 .f32) (z : Vec Ideal S1x1024 .f32) (i : S512x1024.Idx) :
    k0_pay16 (F := Ideal) v0 v1 y z i = P0 (k0_pay2 v0 y i) (k0_pay3 (k0_pay9 v1) z i) := rfl
theorem pay17_apply (v1 : Vec Ideal S512x1 .f32) (z : Vec Ideal S1x1024 .f32) (i : S512x1024.Idx) :
    k0_pay17 (F := Ideal) v1 z i = N0 (k0_pay3 (k0_pay9 v1) z i) := rfl
theorem pay4_apply (v0 : Vec Ideal S512x128 .f32) (v2 mp : FVec Ideal S512x1 .f32) (y : Vec Ideal S1024x128 .f32) (z : Vec Ideal S1x1024 .f32) (p : Fin 512) (l : Fin 1024) :
    k0_pay4 (F := Ideal) v0 v2 mp y z (ix2 p l) = Nm (k0_pay2 v0 y (ix2 p l)) (k0_pay3 v2 z (ix2 p l)) (mp (ix2 p (0 : Fin 1))) := by
  unfold k0_pay4
  show IntOp.andi (N0 (k0_pay3 v2 z (ix2 p l))) (Ideal.cmp .ogt (k0_pay2 v0 y (ix2 p l) + W 0x3DCCCCCD#32) (broadcastTo S512x1024 mp broadcasts_S512x1_S512x1024 (ix2 p l))) = _
  rw [Cert.Lib.RowReduce.broadcastTo_a1_ab_apply]; rfl
theorem pay5_apply (v0 : Vec Ideal S512x128 .f32) (v2 mn : FVec Ideal S512x1 .f32) (y : Vec Ideal S1024x128 .f32) (z : Vec Ideal S1x1024 .f32) (p : Fin 512) (l : Fin 1024) :
    k0_pay5 (F := Ideal) v0 v2 mn y z (ix2 p l) = Pm (k0_pay2 v0 y (ix2 p l)) (k0_pay3 v2 z (ix2 p l)) (mn (ix2 p (0 : Fin 1))) := by
  unfold k0_pay5
  show IntOp.andi (P0 (k0_pay2 v0 y (ix2 p l)) (k0_pay3 v2 z (ix2 p l))) (Ideal.cmp .olt (k0_pay2 v0 y (ix2 p l) - W 0x3DCCCCCD#32) (broadcastTo S512x1024 mn broadcasts_S512x1_S512x1024 (ix2 p l))) = _
  rw [Cert.Lib.RowReduce.broadcastTo_a1_ab_apply]; rfl

/-! ### Pass 1: the four running columns after one more tile, at row p -/

theorem pay18_row (v0 : Vec Ideal S512x128 .f32) (v1 : Vec Ideal S512x1 .f32) (a : FVec Ideal S512x1 .f32) (y : Vec Ideal S1024x128 .f32) (z : Vec Ideal S1x1024 .f32) (p : Fin 512) :
    k0_pay18 (F := Ideal) v0 v1 a y z (ix2 p (0 : Fin 1)) = min (a (ix2 p (0 : Fin 1)))
      (Finset.univ.fold min (W 0x7F800000#32) (fun l : Fin 1024 => Scalar.select (P0 (k0_pay2 v0 y (ix2 p l)) (k0_pay3 (k0_pay9 v1) z (ix2 p l))) (k0_pay2 v0 y (ix2 p l)) (W 0x7F800000#32))) := by
  unfold k0_pay18
  exact congrArg (min (a (ix2 p (0 : Fin 1)))) (rowMin _ _ _ _ _ _ p 0)

theorem pay19_row (v0 : Vec Ideal S512x128 .f32) (v1 : Vec Ideal S512x1 .f32) (a : FVec Ideal S512x1 .f32) (y : Vec Ideal S1024x128 .f32) (z : Vec Ideal S1x1024 .f32) (p : Fin 512) :
    k0_pay19 (F := Ideal) v0 v1 a y z (ix2 p (0 : Fin 1)) = max (a (ix2 p (0 : Fin 1)))
      (Finset.univ.fold max (W 0xFF800000#32) (fun l : Fin 1024 => Scalar.select (N0 (k0_pay3 (k0_pay9 v1) z (ix2 p l))) (k0_pay2 v0 y (ix2 p l)) (W 0xFF800000#32))) := by
  unfold k0_pay19
  exact congrArg (max (a (ix2 p (0 : Fin 1)))) (rowMax _ _ _ _ _ _ p 0)

theorem pay20_row (v0 : Vec Ideal S512x128 .f32) (v1 : Vec Ideal S512x1 .f32) (a : FVec Ideal S512x1 .f32) (y : Vec Ideal S1024x128 .f32) (z : Vec Ideal S1x1024 .f32) (p : Fin 512) :
    k0_pay20 (F := Ideal) v0 v1 a y z (ix2 p (0 : Fin 1)) = max (a (ix2 p (0 : Fin 1)))
      (Finset.univ.fold max (W 0xFF800000#32) (fun l : Fin 1024 => flag (P0 (k0_pay2 v0 y (ix2 p l)) (k0_pay3 (k0_pay9 v1) z (ix2 p l))))) := by
  unfold k0_pay20
  exact congrArg (max (a (ix2 p (0 : Fin 1)))) (rowMax _ _ _ _ _ _ p 0)

theorem pay21_row (v1 : Vec Ideal S512x1 .f32) (a : FVec Ideal S512x1 .f32) (z : Vec Ideal S1x1024 .f32) (p : Fin 512) :
    k0_pay21 (F := Ideal) v1 a z (ix2 p (0 : Fin 1)) = max (a (ix2 p (0 : Fin 1)))
      (Finset.univ.fold max (W 0xFF800000#32) (fun l : Fin 1024 => flag (N0 (k0_pay3 (k0_pay9 v1) z (ix2 p l))))) := by
  unfold k0_pay21
  exact congrArg (max (a (ix2 p (0 : Fin 1)))) (rowMax _ _ _ _ _ _ p 0)

/-! ### Pass 2 -/

theorem pay26_row (v0 : Vec Ideal S512x128 .f32) (v2 mn a : FVec Ideal S512x1 .f32) (y : Vec Ideal S1024x128 .f32) (z : Vec Ideal S1x1024 .f32) (p : Fin 512) :
    k0_pay26 (F := Ideal) a (k0_pay5 v0 v2 mn y z) (k0_pay8 v0 y) (ix2 p (0 : Fin 1)) = a (ix2 p (0 : Fin 1))
      + ∑ l : Fin 1024, Scalar.select (Pm (k0_pay2 v0 y (ix2 p l)) (k0_pay3 v2 z (ix2 p l)) (mn (ix2 p (0 : Fin 1)))) (ePos (k0_pay2 v0 y (ix2 p l))) (W 0x00000000#32) := by
  unfold k0_pay26
  refine (congrArg (a (ix2 p (0 : Fin 1)) + ·) (rowSum _ _ _ _ _ _ p 0)).trans ?_
  refine congrArg (a (ix2 p (0 : Fin 1)) + ·) (Finset.sum_congr rfl fun l _ => ?_)
  show Scalar.select (k0_pay5 v0 v2 mn y z (ix2 p l)) _ _ = _
  rw [pay5_apply]; rfl

theorem pay27_row (v0 : Vec Ideal S512x128 .f32) (v2 mp a : FVec Ideal S512x1 .f32) (y : Vec Ideal S1024x128 .f32) (z : Vec Ideal S1x1024 .f32) (p : Fin 512) :
    k0_pay27 (F := Ideal) a (k0_pay2 v0 y) (k0_pay4 v0 v2 mp y z) (ix2 p (0 : Fin 1)) = a (ix2 p (0 : Fin 1))
      + ∑ l : Fin 1024, Scalar.select (Nm (k0_pay2 v0 y (ix2 p l)) (k0_pay3 v2 z (ix2 p l)) (mp (ix2 p (0 : Fin 1)))) (eNeg (k0_pay2 v0 y (ix2 p l))) (W 0x00000000#32) := by
  unfold k0_pay27
  refine (congrArg (a (ix2 p (0 : Fin 1)) + ·) (rowSum _ _ _ _ _ _ p 0)).trans ?_
  refine congrArg (a (ix2 p (0 : Fin 1)) + ·) (Finset.sum_congr rfl fun l _ => ?_)
  show Scalar.select (k0_pay4 v0 v2 mp y z (ix2 p l)) _ _ = _
  rw [pay4_apply]; rfl

theorem pay7_row' (v0 : Vec Ideal S512x128 .f32) (v2 mn a : FVec Ideal S512x1 .f32) (y : Vec Ideal S1024x128 .f32) (z : Vec Ideal S1x1024 .f32) (p : Fin 512) :
    k0_pay7 (F := Ideal) v0 v2 mn a y z (ix2 p (0 : Fin 1)) = max (a (ix2 p (0 : Fin 1)))
      (Finset.univ.fold max (W 0xFF800000#32) (fun l : Fin 1024 => flag (k0_pay5 v0 v2 mn y z (ix2 p l)))) := by
  unfold k0_pay7
  exact congrArg (max (a (ix2 p (0 : Fin 1)))) (rowMax _ _ _ _ _ _ p 0)

theorem pay7_row (v0 : Vec Ideal S512x128 .f32) (v2 mn a : FVec Ideal S512x1 .f32) (y : Vec Ideal S1024x128 .f32) (z : Vec Ideal S1x1024 .f32) (p : Fin 512) :
    k0_pay7 (F := Ideal) v0 v2 mn a y z (ix2 p (0 : Fin 1)) = max (a (ix2 p (0 : Fin 1)))
      (Finset.univ.fold max (W 0xFF800000#32) (fun l : Fin 1024 => flag (Pm (k0_pay2 v0 y (ix2 p l)) (k0_pay3 v2 z (ix2 p l)) (mn (ix2 p (0 : Fin 1)))))) := by
  rw [pay7_row']; simp only [pay5_apply]

theorem pay6_row' (v0 : Vec Ideal S512x128 .f32) (v2 mp a : FVec Ideal S512x1 .f32) (y : Vec Ideal S1024x128 .f32) (z : Vec Ideal S1x1024 .f32) (p : Fin 512) :
    k0_pay6 (F := Ideal) v0 v2 mp a y z (ix2 p (0 : Fin 1)) = max (a (ix2 p (0 : Fin 1)))
      (Finset.univ.fold max (W 0xFF800000#32) (fun l : Fin 1024 => flag (k0_pay4 v0 v2 mp y z (ix2 p l)))) := by
  unfold k0_pay6
  exact congrArg (max (a (ix2 p (0 : Fin 1)))) (rowMax _ _ _ _ _ _ p 0)

theorem pay6_row (v0 : Vec Ideal S512x128 .f32) (v2 mp a : FVec Ideal S512x1 .f32) (y : Vec Ideal S1024x128 .f32) (z : Vec Ideal S1x1024 .f32) (p : Fin 512) :
    k0_pay6 (F := Ideal) v0 v2 mp a y z (ix2 p (0 : Fin 1)) = max (a (ix2 p (0 : Fin 1)))
      (Finset.univ.fold max (W 0xFF800000#32) (fun l : Fin 1024 => flag (Nm (k0_pay2 v0 y (ix2 p l)) (k0_pay3 v2 z (ix2 p l)) (mp (ix2 p (0 : Fin 1)))))) := by
  rw [pay6_row']; simp only [pay4_apply]

/-! ### After the two passes -/

theorem pay1_apply (v21 : FVec Ideal S512x1 .f32) (v32 : IVec S512x1 1) (i : S512x1.Idx) :
    k0_pay1 (F := Ideal) v21 v32 i = Scalar.select (v32 i) (v21 i) (W 0x00000000#32) := rfl
theorem pay28_apply (a b : FVec Ideal S512x1 .f32) (i : S512x1.Idx) :
    k0_pay28 (F := Ideal) a b i = W 0x3F000000#32 * Ideal.log1p (a i) + W 0x3CCCCCCD#32 * Ideal.log1p (b i) := rfl
theorem pay29_apply (a b c d : FVec Ideal S512x1 .f32) (i : S512x1.Idx) :
    k0_pay29 (F := Ideal) a b c d i = IntOp.andi (IntOp.andi (IntOp.andi (Ideal.cmp .ogt (a i) (W 0x00000000#32)) (Ideal.cmp .ogt (b i) (W 0x00000000#32)))
      (Ideal.cmp .ogt (c i) (W 0x00000000#32))) (Ideal.cmp .ogt (d i) (W 0x00000000#32)) := rfl

end Cert.KernelIdeal.Hand

end
-- ==== Proof.KI.Value.lean ====
import proofs.«112171_j81698867904771_2_alg».proof.Proof.KI.Run
import proofs.«112171_j81698867904771_2_alg».proof.Proof.KI.PayRows

/-!
  What the body leaves in row p of the output block, on the extended reals: the row's loss (RowLoss.lean) of the
  similarities of the block's row p with all 8192 feature rows and of the squared distances of its label to all 8192
  labels. The two counted loops are read by their recursions: after k trips each carried column holds, at row p, what the
  first k tiles of 1024 columns contribute.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Cert.RowLoss

theorem trips1 : k0_t1_loop.trips = 8 := by decide
theorem trips2 : k0_t2_loop.trips = 8 := by decide
theorem lt1 (k : Fin 8) : k.val < k0_t1_loop.trips := by rw [trips1]; exact k.isLt
theorem lt2 (k : Fin 8) : k.val < k0_t2_loop.trips := by rw [trips2]; exact k.isLt

section AnyF
variable {F : FTy → Type} [FloatOps F]

set_option maxHeartbeats 4000000 in
/-- One trip of the first loop, as the run found it: the four columns of pass 1 after one more tile. -/
theorem tripR1_eq (𝒱 : Variants) (c : Dev nD) (bd : Option 𝒱.V) (i : grid0.Coords) (arg1 : Memref sig .tc .vmem S512x128 .f32) (harg1 : arg1.IsWhole) (arg2 : Memref sig .tc .vmem S512x1 .f32) (harg2 : arg2.IsWhole) (arg3 : Memref sig .tc .vmem S8192x128 .f32) (harg3 : arg3.IsWhole) (arg4 : Memref sig .tc .vmem S1x8192 .f32) (harg4 : arg4.IsWhole) (arg5 : Memref sig .tc .vmem S512x1 .f32) (harg5 : arg5.IsWhole) (v0 : Vec F S512x128 .f32) (v1 : Vec F S512x1 .f32) (X3 : BufTy.Contents (Elt F) arg3.view.ty) (X4 : BufTy.Contents (Elt F) arg4.view.ty) (k : Fin k0_t1_loop.trips) (acc : FVec F S512x1 .f32 × FVec F S512x1 .f32 × FVec F S512x1 .f32 × FVec F S512x1 .f32) :
    tripR_k0_t1 (F := F) 𝒱 c bd i arg1 harg1 arg2 harg2 arg3 harg3 arg4 harg4 arg5 harg5 v0 v1 X3 X4 k acc
      = (k0_pay18 v0 v1 acc.1 (View.readAt (Elt F) arg3.view (Rect.unit (s := S8192x128) (k0_off1 k) S1024x128.size (k0_off1_inb k)).toLoadRect X3) (View.readAt (Elt F) arg4.view (Rect.unit (s := S1x8192) (k0_off2 k) S1x1024.size (k0_off2_inb k)).toLoadRect X4),
         k0_pay19 v0 v1 acc.2.1 (View.readAt (Elt F) arg3.view (Rect.unit (s := S8192x128) (k0_off1 k) S1024x128.size (k0_off1_inb k)).toLoadRect X3) (View.readAt (Elt F) arg4.view (Rect.unit (s := S1x8192) (k0_off2 k) S1x1024.size (k0_off2_inb k)).toLoadRect X4),
         k0_pay20 v0 v1 acc.2.2.1 (View.readAt (Elt F) arg3.view (Rect.unit (s := S8192x128) (k0_off1 k) S1024x128.size (k0_off1_inb k)).toLoadRect X3) (View.readAt (Elt F) arg4.view (Rect.unit (s := S1x8192) (k0_off2 k) S1x1024.size (k0_off2_inb k)).toLoadRect X4),
         k0_pay21 v1 acc.2.2.2 (View.readAt (Elt F) arg4.view (Rect.unit (s := S1x8192) (k0_off2 k) S1x1024.size (k0_off2_inb k)).toLoadRect X4)) := by
  unfold tripR_k0_t1 trip_k0_t1
  dsimp only

set_option maxHeartbeats 4000000 in
/-- One trip of the second loop: the four columns of pass 2 after one more tile, mp and mn the results of pass 1. -/
theorem tripR2_eq (𝒱 : Variants) (c : Dev nD) (bd : Option 𝒱.V) (i : grid0.Coords) (arg1 : Memref sig .tc .vmem S512x128 .f32) (harg1 : arg1.IsWhole) (arg2 : Memref sig .tc .vmem S512x1 .f32) (harg2 : arg2.IsWhole) (arg3 : Memref sig .tc .vmem S8192x128 .f32) (harg3 : arg3.IsWhole) (arg4 : Memref sig .tc .vmem S1x8192 .f32) (harg4 : arg4.IsWhole) (arg5 : Memref sig .tc .vmem S512x1 .f32) (harg5 : arg5.IsWhole) (v0 : Vec F S512x128 .f32) (v1 : Vec F S512x1 .f32) (mp mn : FVec F S512x1 .f32) (X3 : BufTy.Contents (Elt F) arg3.view.ty) (X4 : BufTy.Contents (Elt F) arg4.view.ty) (k : Fin k0_t2_loop.trips) (acc : FVec F S512x1 .f32 × FVec F S512x1 .f32 × FVec F S512x1 .f32 × FVec F S512x1 .f32) :
    tripR_k0_t2 (F := F) 𝒱 c bd i arg1 harg1 arg2 harg2 arg3 harg3 arg4 harg4 arg5 harg5 v0 v1 mp mn X3 X4 k acc
      = (k0_pay26 acc.1 (k0_pay5 v0 (k0_pay9 v1) mn (View.readAt (Elt F) arg3.view (Rect.unit (s := S8192x128) (k0_off3 k) S1024x128.size (k0_off3_inb k)).toLoadRect X3) (View.readAt (Elt F) arg4.view (Rect.unit (s := S1x8192) (k0_off4 k) S1x1024.size (k0_off4_inb k)).toLoadRect X4)) (k0_pay8 v0 (View.readAt (Elt F) arg3.view (Rect.unit (s := S8192x128) (k0_off3 k) S1024x128.size (k0_off3_inb k)).toLoadRect X3)),
         k0_pay27 acc.2.1 (k0_pay2 v0 (View.readAt (Elt F) arg3.view (Rect.unit (s := S8192x128) (k0_off3 k) S1024x128.size (k0_off3_inb k)).toLoadRect X3)) (k0_pay4 v0 (k0_pay9 v1) mp (View.readAt (Elt F) arg3.view (Rect.unit (s := S8192x128) (k0_off3 k) S1024x128.size (k0_off3_inb k)).toLoadRect X3) (View.readAt (Elt F) arg4.view (Rect.unit (s := S1x8192) (k0_off4 k) S1x1024.size (k0_off4_inb k)).toLoadRect X4)),
         k0_pay7 v0 (k0_pay9 v1) mn acc.2.2.1 (View.readAt (Elt F) arg3.view (Rect.unit (s := S8192x128) (k0_off3 k) S1024x128.size (k0_off3_inb k)).toLoadRect X3) (View.readAt (Elt F) arg4.view (Rect.unit (s := S1x8192) (k0_off4 k) S1x1024.size (k0_off4_inb k)).toLoadRect X4),
         k0_pay6 v0 (k0_pay9 v1) mp acc.2.2.2 (View.readAt (Elt F) arg3.view (Rect.unit (s := S8192x128) (k0_off3 k) S1024x128.size (k0_off3_inb k)).toLoadRect X3) (View.readAt (Elt F) arg4.view (Rect.unit (s := S1x8192) (k0_off4 k) S1x1024.size (k0_off4_inb k)).toLoadRect X4)) := by
  unfold tripR_k0_t2 trip_k0_t2
  dsimp only
  sl_unfold_words
  rfl

/-- The two input blocks as the body loads them. -/
abbrev rd0 (arg1 : Memref sig .tc .vmem S512x128 .f32) (harg1 : arg1.IsWhole) (x0 : Vec F S512x128 .f32) : Vec F S512x128 .f32 :=
  View.readAt (Elt F) arg1.view (Rect.unit (s := S512x128) ![0, 0] S512x128.size inb_S512x128_S512x128_0_0).toLoadRect (harg1.unread x0)
abbrev rd1 (arg2 : Memref sig .tc .vmem S512x1 .f32) (harg2 : arg2.IsWhole) (x1 : Vec F S512x1 .f32) : Vec F S512x1 .f32 :=
  View.readAt (Elt F) arg2.view (Rect.unit (s := S512x1) ![0, 0] S512x1.size inb_S512x1_S512x1_0_0).toLoadRect (harg2.unread x1)

/-- The four columns of pass 1 before trip n, -/
def St1 (c : Dev nD) (i : grid0.Coords) (arg1 : Memref sig .tc .vmem S512x128 .f32) (harg1 : arg1.IsWhole) (arg2 : Memref sig .tc .vmem S512x1 .f32) (harg2 : arg2.IsWhole) (arg3 : Memref sig .tc .vmem S8192x128 .f32) (harg3 : arg3.IsWhole) (arg4 : Memref sig .tc .vmem S1x8192 .f32) (harg4 : arg4.IsWhole) (arg5 : Memref sig .tc .vmem S512x1 .f32) (harg5 : arg5.IsWhole) (x0 : Vec F S512x128 .f32) (x1 : Vec F S512x1 .f32) (x2 : Vec F S8192x128 .f32) (x3 : Vec F S1x8192 .f32) (n : ℕ) :=
  st_k0_t1 (F := F) Variants.none c none i arg1 harg1 arg2 harg2 arg3 harg3 arg4 harg4 arg5 harg5 (rd0 arg1 harg1 x0) (rd1 arg2 harg2 x1) (harg3.unread x2) (harg4.unread x3)
    (k0_pay10, k0_pay11, k0_pay12, k0_pay13) n
/-- and the four of pass 2, given pass 1's smallest positive and largest negative similarities. -/
def St2 (c : Dev nD) (i : grid0.Coords) (arg1 : Memref sig .tc .vmem S512x128 .f32) (harg1 : arg1.IsWhole) (arg2 : Memref sig .tc .vmem S512x1 .f32) (harg2 : arg2.IsWhole) (arg3 : Memref sig .tc .vmem S8192x128 .f32) (harg3 : arg3.IsWhole) (arg4 : Memref sig .tc .vmem S1x8192 .f32) (harg4 : arg4.IsWhole) (arg5 : Memref sig .tc .vmem S512x1 .f32) (harg5 : arg5.IsWhole) (x0 : Vec F S512x128 .f32) (x1 : Vec F S512x1 .f32) (x2 : Vec F S8192x128 .f32) (x3 : Vec F S1x8192 .f32) (mp mn : FVec F S512x1 .f32) (n : ℕ) :=
  st_k0_t2 (F := F) Variants.none c none i arg1 harg1 arg2 harg2 arg3 harg3 arg4 harg4 arg5 harg5 (rd0 arg1 harg1 x0) (rd1 arg2 harg2 x1) mp mn (harg3.unread x2) (harg4.unread x3)
    (k0_pay22, k0_pay23, k0_pay24, k0_pay25) n

set_option maxHeartbeats 1000000 in
/-- The one piece the body stores: the loss of pass 2's sums where all four flags are up, zero elsewhere. -/
theorem kernelRun_pieces (c : Dev nD) (i : grid0.Coords) (arg1 : Memref sig .tc .vmem S512x128 .f32) (harg1 : arg1.IsWhole) (arg2 : Memref sig .tc .vmem S512x1 .f32) (harg2 : arg2.IsWhole) (arg3 : Memref sig .tc .vmem S8192x128 .f32) (harg3 : arg3.IsWhole) (arg4 : Memref sig .tc .vmem S1x8192 .f32) (harg4 : arg4.IsWhole) (arg5 : Memref sig .tc .vmem S512x1 .f32) (harg5 : arg5.IsWhole) (x0 : Vec F S512x128 .f32) (x1 : Vec F S512x1 .f32) (x2 : Vec F S8192x128 .f32) (x3 : Vec F S1x8192 .f32) :
    (kernelRun (F := F) c i arg1 harg1 arg2 harg2 arg3 harg3 arg4 harg4 arg5 harg5 x0 x1 x2 x3).1
      = [⟨Rect.unit (s := S512x1) ![0, 0] S512x1.size inb_S512x1_S512x1_0_0,
          k0_pay1
            (k0_pay28
              (St2 c i arg1 harg1 arg2 harg2 arg3 harg3 arg4 harg4 arg5 harg5 x0 x1 x2 x3 (St1 c i arg1 harg1 arg2 harg2 arg3 harg3 arg4 harg4 arg5 harg5 x0 x1 x2 x3 k0_t1_loop.trips).1 (St1 c i arg1 harg1 arg2 harg2 arg3 harg3 arg4 harg4 arg5 harg5 x0 x1 x2 x3 k0_t1_loop.trips).2.1 k0_t2_loop.trips).1
              (St2 c i arg1 harg1 arg2 harg2 arg3 harg3 arg4 harg4 arg5 harg5 x0 x1 x2 x3 (St1 c i arg1 harg1 arg2 harg2 arg3 harg3 arg4 harg4 arg5 harg5 x0 x1 x2 x3 k0_t1_loop.trips).1 (St1 c i arg1 harg1 arg2 harg2 arg3 harg3 arg4 harg4 arg5 harg5 x0 x1 x2 x3 k0_t1_loop.trips).2.1 k0_t2_loop.trips).2.1)
            (k0_pay29
              (St1 c i arg1 harg1 arg2 harg2 arg3 harg3 arg4 harg4 arg5 harg5 x0 x1 x2 x3 k0_t1_loop.trips).2.2.1
              (St1 c i arg1 harg1 arg2 harg2 arg3 harg3 arg4 harg4 arg5 harg5 x0 x1 x2 x3 k0_t1_loop.trips).2.2.2
              (St2 c i arg1 harg1 arg2 harg2 arg3 harg3 arg4 harg4 arg5 harg5 x0 x1 x2 x3 (St1 c i arg1 harg1 arg2 harg2 arg3 harg3 arg4 harg4 arg5 harg5 x0 x1 x2 x3 k0_t1_loop.trips).1 (St1 c i arg1 harg1 arg2 harg2 arg3 harg3 arg4 harg4 arg5 harg5 x0 x1 x2 x3 k0_t1_loop.trips).2.1 k0_t2_loop.trips).2.2.1
              (St2 c i arg1 harg1 arg2 harg2 arg3 harg3 arg4 harg4 arg5 harg5 x0 x1 x2 x3 (St1 c i arg1 harg1 arg2 harg2 arg3 harg3 arg4 harg4 arg5 harg5 x0 x1 x2 x3 k0_t1_loop.trips).1 (St1 c i arg1 harg1 arg2 harg2 arg3 harg3 arg4 harg4 arg5 harg5 x0 x1 x2 x3 k0_t1_loop.trips).2.1 k0_t2_loop.trips).2.2.2)⟩] := by
  unfold kernelRun
  dsimp only
  sl_unfold_words
  rfl

end AnyF

/-! ## On the extended reals -/

theorem hz2 : (![0, 0] : Fin 2 → ℕ) = fun _ => 0 := funext fun a => by match a with | ⟨0, _⟩ => rfl | ⟨1, _⟩ => rfl

theorem rd0_eq (arg1 : Memref sig .tc .vmem S512x128 .f32) (harg1 : arg1.IsWhole) (x0 : Vec Ideal S512x128 .f32) : rd0 arg1 harg1 x0 = x0 := by
  show View.ld (arg1.view.read (Elt Ideal) (harg1.unread x0)) (Rect.unit (s := S512x128) ![0, 0] S512x128.size inb_S512x128_S512x128_0_0) = x0
  rw [harg1.read_unread, View.ld_unit_zero hz2]
theorem rd1_eq (arg2 : Memref sig .tc .vmem S512x1 .f32) (harg2 : arg2.IsWhole) (x1 : Vec Ideal S512x1 .f32) : rd1 arg2 harg2 x1 = x1 := by
  show View.ld (arg2.view.read (Elt Ideal) (harg2.unread x1)) (Rect.unit (s := S512x1) ![0, 0] S512x1.size inb_S512x1_S512x1_0_0) = x1
  rw [harg2.read_unread, View.ld_unit_zero hz2]

/-- A tile of 1024 feature rows, loaded at offset 1024·k: its row l is feature row 1024·k + l. -/
theorem tileF_at (arg3 : Memref sig .tc .vmem S8192x128 .f32) (harg3 : arg3.IsWhole) (x2 : Vec Ideal S8192x128 .f32)
    (off : Fin 2 → ℕ) (k : ℕ) (hoff : off = ![1024 * k, 0]) (inb : ∀ a, off a + S1024x128.size a ≤ S8192x128.size a)
    (l : Fin 1024) (kk : Fin 128) (j : Fin 8192) (hj : j.val = 1024 * k + l.val) :
    View.readAt (Elt Ideal) arg3.view (Rect.unit (s := S8192x128) off S1024x128.size inb).toLoadRect (harg3.unread x2) (ix2 l kk) = x2 (ix2 j kk) := by
  show (arg3.view.read (Elt Ideal) (harg3.unread x2)) ((Rect.unit (s := S8192x128) off S1024x128.size inb).idx (ix2 l kk)) = _
  rw [harg3.read_unread]
  refine congrArg x2 (funext fun a => Fin.ext ?_)
  subst hoff
  match a with
  | ⟨0, _⟩ => show 1024 * k + 1 * l.val = j.val; omega
  | ⟨1, _⟩ => show 0 + 1 * kk.val = kk.val; omega

/-- A tile of 1024 labels of the row of labels, loaded at offset 1024·k. -/
theorem tileL_at (arg4 : Memref sig .tc .vmem S1x8192 .f32) (harg4 : arg4.IsWhole) (x3 : Vec Ideal S1x8192 .f32)
    (off : Fin 2 → ℕ) (k : ℕ) (hoff : off = ![0, 1024 * k]) (inb : ∀ a, off a + S1x1024.size a ≤ S1x8192.size a)
    (l : Fin 1024) (j : Fin 8192) (hj : j.val = 1024 * k + l.val) :
    View.readAt (Elt Ideal) arg4.view (Rect.unit (s := S1x8192) off S1x1024.size inb).toLoadRect (harg4.unread x3) (ix2 (0 : Fin 1) l) = x3 (ix2 (0 : Fin 1) j) := by
  show (arg4.view.read (Elt Ideal) (harg4.unread x3)) ((Rect.unit (s := S1x8192) off S1x1024.size inb).idx (ix2 (0 : Fin 1) l)) = _
  rw [harg4.read_unread]
  refine congrArg x3 (funext fun a => Fin.ext ?_)
  subst hoff
  match a with
  | ⟨0, _⟩ => rfl
  | ⟨1, _⟩ => show 1024 * k + 1 * l.val = j.val; omega

/-- The similarity of block row p with feature row j, and the squared distance of its label to label j. -/
def sX (x0 : Vec Ideal S512x128 .f32) (x2 : Vec Ideal S8192x128 .f32) (p : Fin 512) (j : Fin (8 * 1024)) : EReal :=
  ∑ kk : Fin 128, x0 (ix2 p kk) * x2 (ix2 j kk)
def qX (x1 : Vec Ideal S512x1 .f32) (x3 : Vec Ideal S1x8192 .f32) (p : Fin 512) (j : Fin (8 * 1024)) : EReal :=
  (x1 (ix2 p (0 : Fin 1)) - x3 (ix2 (0 : Fin 1) j)) * (x1 (ix2 p (0 : Fin 1)) - x3 (ix2 (0 : Fin 1) j))

theorem tix_val (k : Fin 8) (l : Fin 1024) : (tix k l : Fin (8 * 1024)).val = 1024 * k.val + l.val := by
  show k.val * 1024 + l.val = _; omega

/-- The similarity and the squared distance at (p, l) of tile k are those of column l of tile k. -/
theorem cellS (arg1 : Memref sig .tc .vmem S512x128 .f32) (harg1 : arg1.IsWhole) (arg3 : Memref sig .tc .vmem S8192x128 .f32) (harg3 : arg3.IsWhole)
    (x0 : Vec Ideal S512x128 .f32) (x2 : Vec Ideal S8192x128 .f32) (off : Fin 2 → ℕ) (k : Fin 8) (hoff : off = ![1024 * k.val, 0])
    (inb : ∀ a, off a + S1024x128.size a ≤ S8192x128.size a) (p : Fin 512) (l : Fin 1024) :
    k0_pay2 (F := Ideal) (rd0 arg1 harg1 x0) (View.readAt (Elt Ideal) arg3.view (Rect.unit (s := S8192x128) off S1024x128.size inb).toLoadRect (harg3.unread x2)) (ix2 p l)
      = sX x0 x2 p (tix k l) := by
  rw [pay2_apply, rd0_eq]
  exact Finset.sum_congr rfl fun kk _ => congrArg (x0 (ix2 p kk) * ·) (tileF_at arg3 harg3 x2 off k.val hoff inb l kk (tix k l) (tix_val k l))

theorem cellQ (arg2 : Memref sig .tc .vmem S512x1 .f32) (harg2 : arg2.IsWhole) (arg4 : Memref sig .tc .vmem S1x8192 .f32) (harg4 : arg4.IsWhole)
    (x1 : Vec Ideal S512x1 .f32) (x3 : Vec Ideal S1x8192 .f32) (off : Fin 2 → ℕ) (k : Fin 8) (hoff : off = ![0, 1024 * k.val])
    (inb : ∀ a, off a + S1x1024.size a ≤ S1x8192.size a) (p : Fin 512) (l : Fin 1024) :
    k0_pay3 (F := Ideal) (k0_pay9 (rd1 arg2 harg2 x1)) (View.readAt (Elt Ideal) arg4.view (Rect.unit (s := S1x8192) off S1x1024.size inb).toLoadRect (harg4.unread x3)) (ix2 p l)
      = qX x1 x3 p (tix k l) := by
  rw [pay3_apply, pay9_eq, rd1_eq, tileL_at arg4 harg4 x3 off k.val hoff inb l (tix k l) (tix_val k l)]
  rfl

/-! ## The two passes, row by row -/

section Rows

variable (c : Dev nD) (i : grid0.Coords) (arg1 : Memref sig .tc .vmem S512x128 .f32) (harg1 : arg1.IsWhole) (arg2 : Memref sig .tc .vmem S512x1 .f32) (harg2 : arg2.IsWhole) (arg3 : Memref sig .tc .vmem S8192x128 .f32) (harg3 : arg3.IsWhole) (arg4 : Memref sig .tc .vmem S1x8192 .f32) (harg4 : arg4.IsWhole) (arg5 : Memref sig .tc .vmem S512x1 .f32) (harg5 : arg5.IsWhole) (x0 : Vec Ideal S512x128 .f32) (x1 : Vec Ideal S512x1 .f32) (x2 : Vec Ideal S8192x128 .f32) (x3 : Vec Ideal S1x8192 .f32)

/-- Pass 1 after one more tile. -/
theorem St1_succ (k : Fin 8) :
    St1 (F := Ideal) c i arg1 harg1 arg2 harg2 arg3 harg3 arg4 harg4 arg5 harg5 x0 x1 x2 x3 (k.val + 1)
      = (k0_pay18 (rd0 arg1 harg1 x0) (rd1 arg2 harg2 x1) (St1 (F := Ideal) c i arg1 harg1 arg2 harg2 arg3 harg3 arg4 harg4 arg5 harg5 x0 x1 x2 x3 k.val).1 (View.readAt (Elt Ideal) arg3.view (Rect.unit (s := S8192x128) (k0_off1 ⟨k.val, lt1 k⟩) S1024x128.size (k0_off1_inb ⟨k.val, lt1 k⟩)).toLoadRect (harg3.unread x2)) (View.readAt (Elt Ideal) arg4.view (Rect.unit (s := S1x8192) (k0_off2 ⟨k.val, lt1 k⟩) S1x1024.size (k0_off2_inb ⟨k.val, lt1 k⟩)).toLoadRect (harg4.unread x3)),
         k0_pay19 (rd0 arg1 harg1 x0) (rd1 arg2 harg2 x1) (St1 (F := Ideal) c i arg1 harg1 arg2 harg2 arg3 harg3 arg4 harg4 arg5 harg5 x0 x1 x2 x3 k.val).2.1 (View.readAt (Elt Ideal) arg3.view (Rect.unit (s := S8192x128) (k0_off1 ⟨k.val, lt1 k⟩) S1024x128.size (k0_off1_inb ⟨k.val, lt1 k⟩)).toLoadRect (harg3.unread x2)) (View.readAt (Elt Ideal) arg4.view (Rect.unit (s := S1x8192) (k0_off2 ⟨k.val, lt1 k⟩) S1x1024.size (k0_off2_inb ⟨k.val, lt1 k⟩)).toLoadRect (harg4.unread x3)),
         k0_pay20 (rd0 arg1 harg1 x0) (rd1 arg2 harg2 x1) (St1 (F := Ideal) c i arg1 harg1 arg2 harg2 arg3 harg3 arg4 harg4 arg5 harg5 x0 x1 x2 x3 k.val).2.2.1 (View.readAt (Elt Ideal) arg3.view (Rect.unit (s := S8192x128) (k0_off1 ⟨k.val, lt1 k⟩) S1024x128.size (k0_off1_inb ⟨k.val, lt1 k⟩)).toLoadRect (harg3.unread x2)) (View.readAt (Elt Ideal) arg4.view (Rect.unit (s := S1x8192) (k0_off2 ⟨k.val, lt1 k⟩) S1x1024.size (k0_off2_inb ⟨k.val, lt1 k⟩)).toLoadRect (harg4.unread x3)),
         k0_pay21 (rd1 arg2 harg2 x1) (St1 (F := Ideal) c i arg1 harg1 arg2 harg2 arg3 harg3 arg4 harg4 arg5 harg5 x0 x1 x2 x3 k.val).2.2.2 (View.readAt (Elt Ideal) arg4.view (Rect.unit (s := S1x8192) (k0_off2 ⟨k.val, lt1 k⟩) S1x1024.size (k0_off2_inb ⟨k.val, lt1 k⟩)).toLoadRect (harg4.unread x3))) := by
  unfold St1
  exact (st_k0_t1_succ (F := Ideal) Variants.none c none i arg1 harg1 arg2 harg2 arg3 harg3 arg4 harg4 arg5 harg5 _ _ _ _ _ ⟨k.val, lt1 k⟩).trans (tripR1_eq ..)

/-- Pass 2 after one more tile. -/
theorem St2_succ (mp mn : FVec Ideal S512x1 .f32) (k : Fin 8) :
    St2 (F := Ideal) c i arg1 harg1 arg2 harg2 arg3 harg3 arg4 harg4 arg5 harg5 x0 x1 x2 x3 mp mn (k.val + 1)
      = (k0_pay26 (St2 (F := Ideal) c i arg1 harg1 arg2 harg2 arg3 harg3 arg4 harg4 arg5 harg5 x0 x1 x2 x3 mp mn k.val).1 (k0_pay5 (rd0 arg1 harg1 x0) (k0_pay9 (rd1 arg2 harg2 x1)) mn (View.readAt (Elt Ideal) arg3.view (Rect.unit (s := S8192x128) (k0_off3 ⟨k.val, lt2 k⟩) S1024x128.size (k0_off3_inb ⟨k.val, lt2 k⟩)).toLoadRect (harg3.unread x2)) (View.readAt (Elt Ideal) arg4.view (Rect.unit (s := S1x8192) (k0_off4 ⟨k.val, lt2 k⟩) S1x1024.size (k0_off4_inb ⟨k.val, lt2 k⟩)).toLoadRect (harg4.unread x3))) (k0_pay8 (rd0 arg1 harg1 x0) (View.readAt (Elt Ideal) arg3.view (Rect.unit (s := S8192x128) (k0_off3 ⟨k.val, lt2 k⟩) S1024x128.size (k0_off3_inb ⟨k.val, lt2 k⟩)).toLoadRect (harg3.unread x2))),
         k0_pay27 (St2 (F := Ideal) c i arg1 harg1 arg2 harg2 arg3 harg3 arg4 harg4 arg5 harg5 x0 x1 x2 x3 mp mn k.val).2.1 (k0_pay2 (rd0 arg1 harg1 x0) (View.readAt (Elt Ideal) arg3.view (Rect.unit (s := S8192x128) (k0_off3 ⟨k.val, lt2 k⟩) S1024x128.size (k0_off3_inb ⟨k.val, lt2 k⟩)).toLoadRect (harg3.unread x2))) (k0_pay4 (rd0 arg1 harg1 x0) (k0_pay9 (rd1 arg2 harg2 x1)) mp (View.readAt (Elt Ideal) arg3.view (Rect.unit (s := S8192x128) (k0_off3 ⟨k.val, lt2 k⟩) S1024x128.size (k0_off3_inb ⟨k.val, lt2 k⟩)).toLoadRect (harg3.unread x2)) (View.readAt (Elt Ideal) arg4.view (Rect.unit (s := S1x8192) (k0_off4 ⟨k.val, lt2 k⟩) S1x1024.size (k0_off4_inb ⟨k.val, lt2 k⟩)).toLoadRect (harg4.unread x3))),
         k0_pay7 (rd0 arg1 harg1 x0) (k0_pay9 (rd1 arg2 harg2 x1)) mn (St2 (F := Ideal) c i arg1 harg1 arg2 harg2 arg3 harg3 arg4 harg4 arg5 harg5 x0 x1 x2 x3 mp mn k.val).2.2.1 (View.readAt (Elt Ideal) arg3.view (Rect.unit (s := S8192x128) (k0_off3 ⟨k.val, lt2 k⟩) S1024x128.size (k0_off3_inb ⟨k.val, lt2 k⟩)).toLoadRect (harg3.unread x2)) (View.readAt (Elt Ideal) arg4.view (Rect.unit (s := S1x8192) (k0_off4 ⟨k.val, lt2 k⟩) S1x1024.size (k0_off4_inb ⟨k.val, lt2 k⟩)).toLoadRect (harg4.unread x3)),
         k0_pay6 (rd0 arg1 harg1 x0) (k0_pay9 (rd1 arg2 harg2 x1)) mp (St2 (F := Ideal) c i arg1 harg1 arg2 harg2 arg3 harg3 arg4 harg4 arg5 harg5 x0 x1 x2 x3 mp mn k.val).2.2.2 (View.readAt (Elt Ideal) arg3.view (Rect.unit (s := S8192x128) (k0_off3 ⟨k.val, lt2 k⟩) S1024x128.size (k0_off3_inb ⟨k.val, lt2 k⟩)).toLoadRect (harg3.unread x2)) (View.readAt (Elt Ideal) arg4.view (Rect.unit (s := S1x8192) (k0_off4 ⟨k.val, lt2 k⟩) S1x1024.size (k0_off4_inb ⟨k.val, lt2 k⟩)).toLoadRect (harg4.unread x3))) := by
  unfold St2
  exact (st_k0_t2_succ (F := Ideal) Variants.none c none i arg1 harg1 arg2 harg2 arg3 harg3 arg4 harg4 arg5 harg5 _ _ _ _ _ _ _ ⟨k.val, lt2 k⟩).trans (tripR2_eq ..)

set_option maxHeartbeats 4000000 in
/-- Row p of the block the body stores is the row's loss of the similarities and squared label distances of the block's
    row p to all 8192 rows. -/
theorem outBlk_row (p : Fin 512) :
    outBlk (F := Ideal) c i arg1 harg1 arg2 harg2 arg3 harg3 arg4 harg4 arg5 harg5 x0 x1 x2 x3 (ix2 p (0 : Fin 1)) = rowLoss (sX x0 x2 p) (qX x1 x3 p) := by
  unfold outBlk
  rw [kernelRun_pieces, View.canon_unit_zero hz2, pay1_apply, pay28_apply, pay29_apply]
  rw [show St1 (F := Ideal) c i arg1 harg1 arg2 harg2 arg3 harg3 arg4 harg4 arg5 harg5 x0 x1 x2 x3 k0_t1_loop.trips = St1 (F := Ideal) c i arg1 harg1 arg2 harg2 arg3 harg3 arg4 harg4 arg5 harg5 x0 x1 x2 x3 8 from congrArg _ trips1]
  rw [show St2 (F := Ideal) c i arg1 harg1 arg2 harg2 arg3 harg3 arg4 harg4 arg5 harg5 x0 x1 x2 x3 (St1 (F := Ideal) c i arg1 harg1 arg2 harg2 arg3 harg3 arg4 harg4 arg5 harg5 x0 x1 x2 x3 8).1 (St1 (F := Ideal) c i arg1 harg1 arg2 harg2 arg3 harg3 arg4 harg4 arg5 harg5 x0 x1 x2 x3 8).2.1 k0_t2_loop.trips
      = St2 (F := Ideal) c i arg1 harg1 arg2 harg2 arg3 harg3 arg4 harg4 arg5 harg5 x0 x1 x2 x3 (St1 (F := Ideal) c i arg1 harg1 arg2 harg2 arg3 harg3 arg4 harg4 arg5 harg5 x0 x1 x2 x3 8).1 (St1 (F := Ideal) c i arg1 harg1 arg2 harg2 arg3 harg3 arg4 harg4 arg5 harg5 x0 x1 x2 x3 8).2.1 8 from congrArg _ trips2]
  refine tiled_eq_flat 8 1024 (sX x0 x2 p) (qX x1 x3 p)
    (fun n => (St1 (F := Ideal) c i arg1 harg1 arg2 harg2 arg3 harg3 arg4 harg4 arg5 harg5 x0 x1 x2 x3 n).1 (ix2 p (0 : Fin 1))) (fun n => (St1 (F := Ideal) c i arg1 harg1 arg2 harg2 arg3 harg3 arg4 harg4 arg5 harg5 x0 x1 x2 x3 n).2.1 (ix2 p (0 : Fin 1)))
    (fun n => (St1 (F := Ideal) c i arg1 harg1 arg2 harg2 arg3 harg3 arg4 harg4 arg5 harg5 x0 x1 x2 x3 n).2.2.1 (ix2 p (0 : Fin 1))) (fun n => (St1 (F := Ideal) c i arg1 harg1 arg2 harg2 arg3 harg3 arg4 harg4 arg5 harg5 x0 x1 x2 x3 n).2.2.2 (ix2 p (0 : Fin 1)))
    (fun n => (St2 (F := Ideal) c i arg1 harg1 arg2 harg2 arg3 harg3 arg4 harg4 arg5 harg5 x0 x1 x2 x3 (St1 (F := Ideal) c i arg1 harg1 arg2 harg2 arg3 harg3 arg4 harg4 arg5 harg5 x0 x1 x2 x3 8).1 (St1 (F := Ideal) c i arg1 harg1 arg2 harg2 arg3 harg3 arg4 harg4 arg5 harg5 x0 x1 x2 x3 8).2.1 n).1 (ix2 p (0 : Fin 1)))
    (fun n => (St2 (F := Ideal) c i arg1 harg1 arg2 harg2 arg3 harg3 arg4 harg4 arg5 harg5 x0 x1 x2 x3 (St1 (F := Ideal) c i arg1 harg1 arg2 harg2 arg3 harg3 arg4 harg4 arg5 harg5 x0 x1 x2 x3 8).1 (St1 (F := Ideal) c i arg1 harg1 arg2 harg2 arg3 harg3 arg4 harg4 arg5 harg5 x0 x1 x2 x3 8).2.1 n).2.1 (ix2 p (0 : Fin 1)))
    (fun n => (St2 (F := Ideal) c i arg1 harg1 arg2 harg2 arg3 harg3 arg4 harg4 arg5 harg5 x0 x1 x2 x3 (St1 (F := Ideal) c i arg1 harg1 arg2 harg2 arg3 harg3 arg4 harg4 arg5 harg5 x0 x1 x2 x3 8).1 (St1 (F := Ideal) c i arg1 harg1 arg2 harg2 arg3 harg3 arg4 harg4 arg5 harg5 x0 x1 x2 x3 8).2.1 n).2.2.1 (ix2 p (0 : Fin 1)))
    (fun n => (St2 (F := Ideal) c i arg1 harg1 arg2 harg2 arg3 harg3 arg4 harg4 arg5 harg5 x0 x1 x2 x3 (St1 (F := Ideal) c i arg1 harg1 arg2 harg2 arg3 harg3 arg4 harg4 arg5 harg5 x0 x1 x2 x3 8).1 (St1 (F := Ideal) c i arg1 harg1 arg2 harg2 arg3 harg3 arg4 harg4 arg5 harg5 x0 x1 x2 x3 8).2.1 n).2.2.2 (ix2 p (0 : Fin 1)))
    rfl rfl rfl rfl rfl rfl rfl rfl ?_ ?_ ?_ ?_ ?_ ?_ ?_ ?_
  · intro k
    show (St1 (F := Ideal) c i arg1 harg1 arg2 harg2 arg3 harg3 arg4 harg4 arg5 harg5 x0 x1 x2 x3 (k.val + 1)).1 (ix2 p (0 : Fin 1)) = _
    rw [St1_succ]
    show k0_pay18 _ _ _ _ _ (ix2 p (0 : Fin 1)) = _
    rw [pay18_row]
    refine congrArg (min _) (congrArg (fun g => Finset.univ.fold min (W 0x7F800000#32) g) (funext fun l => ?_))
    rw [cellS arg1 harg1 arg3 harg3 x0 x2 (k0_off1 ⟨k.val, lt1 k⟩) k (k0_off1_eq ⟨k.val, lt1 k⟩) (k0_off1_inb ⟨k.val, lt1 k⟩) p l, cellQ arg2 harg2 arg4 harg4 x1 x3 (k0_off2 ⟨k.val, lt1 k⟩) k (k0_off2_eq ⟨k.val, lt1 k⟩) (k0_off2_inb ⟨k.val, lt1 k⟩) p l]
  · intro k
    show (St1 (F := Ideal) c i arg1 harg1 arg2 harg2 arg3 harg3 arg4 harg4 arg5 harg5 x0 x1 x2 x3 (k.val + 1)).2.1 (ix2 p (0 : Fin 1)) = _
    rw [St1_succ]
    show k0_pay19 _ _ _ _ _ (ix2 p (0 : Fin 1)) = _
    rw [pay19_row]
    refine congrArg (max _) (congrArg (fun g => Finset.univ.fold max (W 0xFF800000#32) g) (funext fun l => ?_))
    rw [cellS arg1 harg1 arg3 harg3 x0 x2 (k0_off1 ⟨k.val, lt1 k⟩) k (k0_off1_eq ⟨k.val, lt1 k⟩) (k0_off1_inb ⟨k.val, lt1 k⟩) p l, cellQ arg2 harg2 arg4 harg4 x1 x3 (k0_off2 ⟨k.val, lt1 k⟩) k (k0_off2_eq ⟨k.val, lt1 k⟩) (k0_off2_inb ⟨k.val, lt1 k⟩) p l]
  · intro k
    show (St1 (F := Ideal) c i arg1 harg1 arg2 harg2 arg3 harg3 arg4 harg4 arg5 harg5 x0 x1 x2 x3 (k.val + 1)).2.2.1 (ix2 p (0 : Fin 1)) = _
    rw [St1_succ]
    show k0_pay20 _ _ _ _ _ (ix2 p (0 : Fin 1)) = _
    rw [pay20_row]
    refine congrArg (max _) (congrArg (fun g => Finset.univ.fold max (W 0xFF800000#32) g) (funext fun l => ?_))
    rw [cellS arg1 harg1 arg3 harg3 x0 x2 (k0_off1 ⟨k.val, lt1 k⟩) k (k0_off1_eq ⟨k.val, lt1 k⟩) (k0_off1_inb ⟨k.val, lt1 k⟩) p l, cellQ arg2 harg2 arg4 harg4 x1 x3 (k0_off2 ⟨k.val, lt1 k⟩) k (k0_off2_eq ⟨k.val, lt1 k⟩) (k0_off2_inb ⟨k.val, lt1 k⟩) p l]
  · intro k
    show (St1 (F := Ideal) c i arg1 harg1 arg2 harg2 arg3 harg3 arg4 harg4 arg5 harg5 x0 x1 x2 x3 (k.val + 1)).2.2.2 (ix2 p (0 : Fin 1)) = _
    rw [St1_succ]
    show k0_pay21 _ _ _ (ix2 p (0 : Fin 1)) = _
    rw [pay21_row]
    refine congrArg (max _) (congrArg (fun g => Finset.univ.fold max (W 0xFF800000#32) g) (funext fun l => ?_))
    rw [cellQ arg2 harg2 arg4 harg4 x1 x3 (k0_off2 ⟨k.val, lt1 k⟩) k (k0_off2_eq ⟨k.val, lt1 k⟩) (k0_off2_inb ⟨k.val, lt1 k⟩) p l]
  · intro k
    show (St2 (F := Ideal) c i arg1 harg1 arg2 harg2 arg3 harg3 arg4 harg4 arg5 harg5 x0 x1 x2 x3 _ _ (k.val + 1)).1 (ix2 p (0 : Fin 1)) = _
    rw [St2_succ]
    show k0_pay26 _ _ _ (ix2 p (0 : Fin 1)) = _
    rw [pay26_row]
    refine congrArg (_ + ·) (Finset.sum_congr rfl fun l _ => ?_)
    rw [cellS arg1 harg1 arg3 harg3 x0 x2 (k0_off3 ⟨k.val, lt2 k⟩) k (k0_off3_eq ⟨k.val, lt2 k⟩) (k0_off3_inb ⟨k.val, lt2 k⟩) p l, cellQ arg2 harg2 arg4 harg4 x1 x3 (k0_off4 ⟨k.val, lt2 k⟩) k (k0_off4_eq ⟨k.val, lt2 k⟩) (k0_off4_inb ⟨k.val, lt2 k⟩) p l]
  · intro k
    show (St2 (F := Ideal) c i arg1 harg1 arg2 harg2 arg3 harg3 arg4 harg4 arg5 harg5 x0 x1 x2 x3 _ _ (k.val + 1)).2.1 (ix2 p (0 : Fin 1)) = _
    rw [St2_succ]
    show k0_pay27 _ _ _ (ix2 p (0 : Fin 1)) = _
    rw [pay27_row]
    refine congrArg (_ + ·) (Finset.sum_congr rfl fun l _ => ?_)
    rw [cellS arg1 harg1 arg3 harg3 x0 x2 (k0_off3 ⟨k.val, lt2 k⟩) k (k0_off3_eq ⟨k.val, lt2 k⟩) (k0_off3_inb ⟨k.val, lt2 k⟩) p l, cellQ arg2 harg2 arg4 harg4 x1 x3 (k0_off4 ⟨k.val, lt2 k⟩) k (k0_off4_eq ⟨k.val, lt2 k⟩) (k0_off4_inb ⟨k.val, lt2 k⟩) p l]
  · intro k
    show (St2 (F := Ideal) c i arg1 harg1 arg2 harg2 arg3 harg3 arg4 harg4 arg5 harg5 x0 x1 x2 x3 _ _ (k.val + 1)).2.2.1 (ix2 p (0 : Fin 1)) = _
    rw [St2_succ]
    show k0_pay7 _ _ _ _ _ _ (ix2 p (0 : Fin 1)) = _
    rw [pay7_row]
    refine congrArg (max _) (congrArg (fun g => Finset.univ.fold max (W 0xFF800000#32) g) (funext fun l => ?_))
    rw [cellS arg1 harg1 arg3 harg3 x0 x2 (k0_off3 ⟨k.val, lt2 k⟩) k (k0_off3_eq ⟨k.val, lt2 k⟩) (k0_off3_inb ⟨k.val, lt2 k⟩) p l, cellQ arg2 harg2 arg4 harg4 x1 x3 (k0_off4 ⟨k.val, lt2 k⟩) k (k0_off4_eq ⟨k.val, lt2 k⟩) (k0_off4_inb ⟨k.val, lt2 k⟩) p l]
  · intro k
    show (St2 (F := Ideal) c i arg1 harg1 arg2 harg2 arg3 harg3 arg4 harg4 arg5 harg5 x0 x1 x2 x3 _ _ (k.val + 1)).2.2.2 (ix2 p (0 : Fin 1)) = _
    rw [St2_succ]
    show k0_pay6 _ _ _ _ _ _ (ix2 p (0 : Fin 1)) = _
    rw [pay6_row]
    refine congrArg (max _) (congrArg (fun g => Finset.univ.fold max (W 0xFF800000#32) g) (funext fun l => ?_))
    rw [cellS arg1 harg1 arg3 harg3 x0 x2 (k0_off3 ⟨k.val, lt2 k⟩) k (k0_off3_eq ⟨k.val, lt2 k⟩) (k0_off3_inb ⟨k.val, lt2 k⟩) p l, cellQ arg2 harg2 arg4 harg4 x1 x3 (k0_off4 ⟨k.val, lt2 k⟩) k (k0_off4_eq ⟨k.val, lt2 k⟩) (k0_off4_inb ⟨k.val, lt2 k⟩) p l]

end Rows

end Cert.KernelIdeal.Hand

end
-- ==== Proof.RefValue.lean ====
import proofs.«112171_j81698867904771_2_alg».proof.Proof.RefRead
import proofs.«112171_j81698867904771_2_alg».proof.Proof.RowLoss
import proofs.«112171_j81698867904771_2_alg».proof.Proof.LibRowReduce

/-!
  The reference's result read back: for every anchor row r the row's loss — every reduction taken over all 8192 columns
  at once — of the similarities s(r, j) = Σ_k X(r,k)·X(j,k) and the squared label distances q(r, j) = (ℓ(r) − ℓ(j))²,
  and the result their sum over the rows.
-/

set_option maxRecDepth 16384

noncomputable section

open scoped BigOperators

namespace Cert.ReferenceIdeal.RefValue

open Cert.ReferenceIdeal Cert.ReferenceIdeal.Gen Cert.ReferenceIdeal.ReadP
open Idealize.ShloMosaic Idealize.ShloMosaic.ValueIdx
open Cert.RowLoss

variable (X : (⟨S8192x128, .f32⟩ : BufTy).Contents (Elt Ideal)) (L : (⟨S8192x1, .i32⟩ : BufTy).Contents (Elt Ideal))

/-- The label of row r, as a number. -/
def lab (r : Fin 8192) : EReal := FloatOps.sitofp (F := Ideal) .f32 (L (ix2 r (0 : Fin 1)))
/-- The similarity of rows r and j. -/
def sR (r j : Fin 8192) : EReal := ∑ k : Fin 128, X (ix2 r k) * X (ix2 j k)
/-- The squared label distance of rows r and j. -/
def qR (r j : Fin 8192) : EReal := (lab L r - lab L j) * (lab L r - lab L j)

local macro "idx2" : tactic => `(tactic| exact funext fun ax => Fin.ext (by match ax with | ⟨0, _⟩ => rfl | ⟨1, _⟩ => rfl))

theorem v2_at (r j : Fin 8192) : val_main_v2 (F := Ideal) X (ix2 r j) = sR X r j := by
  rw [val_main_v2_apply]; unfold sR
  refine Finset.sum_congr rfl fun k _ => ?_
  rw [val_main_v1_apply, show lidx_main_v2 (ix2 r j) k = ix2 r k from by idx2,
    show idx_main_v1 (ridx_main_v2 (ix2 r j) k) = ix2 j k from by idx2]

theorem v9_at (r j : Fin 8192) : val_main_v9 (F := Ideal) L (ix2 r j) = qR L r j := by
  rw [val_main_v9_apply, Fin.sum_univ_one, val_main_v8_apply, val_main_v7_apply, val_main_v5_apply, val_main_v6_apply,
    val_main_v3_apply, val_main_v4_apply, val_main_v0_apply, val_main_v0_apply,
    show idx_main_v3 (idx_main_v5 (idx_main_v9 (ix2 r j) 0)) = ix2 r (0 : Fin 1) from by idx2,
    show idx_main_v4 (idx_main_v6 (idx_main_v9 (ix2 r j) 0)) = ix2 j (0 : Fin 1) from by idx2]
  show W 0x00000000#32 + qR L r j = qR L r j
  rw [W_zero, zero_add]

theorem v14_at (r j : Fin 8192) : val_main_v14 (F := Ideal) X L (ix2 r j) = P0 (sR X r j) (qR L r j) := by
  rw [val_main_v14_apply, val_main_v11_apply, val_main_v13_apply, v9_at, v2_at]; rfl

theorem v16_at (r j : Fin 8192) : val_main_v16 (F := Ideal) L (ix2 r j) = N0 (qR L r j) := by
  rw [val_main_v16_apply, v9_at]; rfl

theorem hred : S8192x8192.Reduces [1] S8192 := by decide

theorem v20_at (r : Fin 8192) : val_main_v20 (F := Ideal) X L (ix1 r) = minPos (sR X r) (qR L r) := by
  unfold val_main_v20
  rw [Host.reduce_eq_fold_single _ _ _ _ hred _ (ix1 r)]
  unfold minPos
  refine congrArg (fun g => Finset.univ.fold min (W 0x7F800000#32) g) (funext fun (j : Fin 8192) => ?_)
  show val_main_v19 (F := Ideal) X L (hred.lift (ix1 r) j) = _
  rw [show hred.lift (ix1 r) j = ix2 r j from Cert.Lib.RowReduce.lift_row hred r j, val_main_v19_apply, v14_at, v2_at]; rfl

theorem v22_at (r : Fin 8192) : val_main_v22 (F := Ideal) X L (ix1 r) = maxNeg (sR X r) (qR L r) := by
  unfold val_main_v22
  rw [Host.reduce_eq_fold_single _ _ _ _ hred _ (ix1 r)]
  unfold maxNeg
  refine congrArg (fun g => Finset.univ.fold max (W 0xFF800000#32) g) (funext fun (j : Fin 8192) => ?_)
  show val_main_v21 (F := Ideal) X L (hred.lift (ix1 r) j) = _
  rw [show hred.lift (ix1 r) j = ix2 r j from Cert.Lib.RowReduce.lift_row hred r j, val_main_v21_apply, v16_at, v2_at]; rfl

theorem v28_at (r j : Fin 8192) : val_main_v28 (F := Ideal) X L (ix2 r j) = Nm (sR X r j) (qR L r j) (minPos (sR X r) (qR L r)) := by
  rw [val_main_v28_apply, val_main_v27_apply, val_main_v24_apply, val_main_v26_apply, val_main_v25_apply, v16_at, v2_at,
    show idx_main_v25 (idx_main_v26 (ix2 r j)) = ix1 r from funext fun ax => Fin.ext (by match ax with | ⟨0, _⟩ => rfl), v20_at]; rfl

theorem v34_at (r j : Fin 8192) : val_main_v34 (F := Ideal) X L (ix2 r j) = Pm (sR X r j) (qR L r j) (maxNeg (sR X r) (qR L r)) := by
  rw [val_main_v34_apply, val_main_v33_apply, val_main_v30_apply, val_main_v32_apply, val_main_v31_apply, v14_at, v2_at,
    show idx_main_v31 (idx_main_v32 (ix2 r j)) = ix1 r from funext fun ax => Fin.ext (by match ax with | ⟨0, _⟩ => rfl), v22_at]; rfl

theorem any_at (g : S8192x8192.Idx → BitVec 1) (c : S_.Idx → BitVec 1) (hc : c (Shape.Idx.first h_S_) = 0#1) (r : Fin 8192) :
    Host.reduce IntOp.ori g c reducesTo_S8192x8192_S8192_d1 h_S_ (ix1 r) = anyB (fun j => g (ix2 r j)) := by
  rw [Host.reduce_eq_fold_single _ _ _ _ hred _ (ix1 r), hc]
  unfold anyB
  exact congrArg (fun g' => Finset.univ.fold IntOp.ori 0#1 g') (funext fun (j : Fin 8192) => congrArg g (Cert.Lib.RowReduce.lift_row hred r j))

theorem v43_at (r : Fin 8192) : val_main_v43 (F := Ideal) X L (ix1 r) = posSum (sR X r) (qR L r) := by
  rw [val_main_v43_apply]; unfold posSum
  refine congrArg₂ (· + ·) rfl (Finset.sum_congr rfl fun j _ => ?_)
  rw [show idx_main_v43 (ix1 r) j = ix2 r j from by idx2, val_main_v42_apply, v34_at, val_main_v41_apply, val_main_v40_apply,
    val_main_v38_apply, v2_at]; rfl

theorem v50_at (r : Fin 8192) : val_main_v50 (F := Ideal) X L (ix1 r) = negSum (sR X r) (qR L r) := by
  rw [val_main_v50_apply]; unfold negSum
  refine congrArg₂ (· + ·) rfl (Finset.sum_congr rfl fun j _ => ?_)
  rw [show idx_main_v50 (ix1 r) j = ix2 r j from by idx2, val_main_v49_apply, v28_at, val_main_v48_apply, val_main_v47_apply,
    val_main_v45_apply, v2_at]; rfl

theorem v61_at (r : Fin 8192) : val_main_v61 (F := Ideal) X L (ix1 r) = rowLoss (sR X r) (qR L r) := by
  rw [val_main_v61_apply, val_main_v60_apply, val_main_v59_apply, val_main_v58_apply, val_main_v57_apply, val_main_v53_apply,
    val_main_v56_apply, val_main_v51_apply, val_main_v54_apply, v43_at, v50_at]
  unfold val_main_v17 val_main_v18 val_main_v35 val_main_v36
  rw [any_at _ _ rfl, any_at _ _ rfl, any_at _ _ rfl, any_at _ _ rfl]
  simp only [v14_at, v16_at, v28_at, v34_at]
  rfl

/-- The reference's result: the sum over the rows of the row's loss. -/
theorem result_at (i : S_.Idx) : val_main_v62 (F := Ideal) X L i = W 0x00000000#32 + ∑ r : Fin 8192, rowLoss (sR X r) (qR L r) := by
  rw [val_main_v62_apply]
  refine congrArg₂ (· + ·) rfl ?_
  rw [← Equiv.sum_comp (⟨fun r : Fin 8192 => (ix1 r : S8192.Idx), fun j => j 0, fun r => rfl, fun j => (eq_ix1 j).symm⟩ : Fin 8192 ≃ S8192.Idx)]
  exact Finset.sum_congr rfl fun r _ => v61_at X L r

end Cert.ReferenceIdeal.RefValue

end
-- ==== Proof.KI.Final.lean ====
import proofs.«112171_j81698867904771_2_alg».proof.Proof.KI.Value
import proofs.«112171_j81698867904771_2_alg».proof.Proof.RefValue
import Idealize.ShloMosaic.Lib.Pipeline.Value
import Idealize.ShloMosaic.Lib.StableHlo.Run

/-!
  From blocks to the array, and the sum. Point t of the 16-point grid writes back rows 512·t … 512·t + 511 of the loss
  column; row p of that block is the loss of row 512·t + p against all 8192 rows (the block windows read rows
  512·t + p of the features and of the float labels, the two whole-array windows read everything). The blocks tile the
  column, so after the region the column holds every row's loss, and the host's sum of the column is the sum over the
  rows — the reference's result.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open Cert.RowLoss

variable (m : (ℓ : Loc nD τ sig) → Buf (Elt Ideal) ℓ)

/-- The features, the float labels as a column and as a row, as the region finds them. -/
abbrev Xf (c : Dev nD) : S8192x128.Idx → EReal := V m c main_arg0
abbrev Lc (c : Dev nD) : S8192x1.Idx → EReal := V m c main_v0
abbrev Lr (c : Dev nD) : S1x8192.Idx → EReal := V m c main_v1

/-- The loss of row r against all rows, from the arrays as the region finds them. -/
def rowG (c : Dev nD) (r : Fin 8192) : EReal :=
  rowLoss (N := 8 * 1024) (fun j => ∑ kk : Fin 128, Xf m c (ix2 r kk) * Xf m c (ix2 j kk))
    (fun j => (Lc m c (ix2 r (0 : Fin 1)) - Lr m c (ix2 (0 : Fin 1) j)) * (Lc m c (ix2 r (0 : Fin 1)) - Lr m c (ix2 (0 : Fin 1) j)))

/-- The loss column. -/
def Gcol (c : Dev nD) : S8192x1.Idx → EReal := fun i => rowG m c (i 0)

/-- The printed index maps over the grid: the three block windows are at block t, the two whole-array windows at 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem N16 (t : Fin cfg0.N) : t.val < 16 := lt_of_lt_of_eq t.isLt (show cfg0.N = 16 from N_0)

/-- Row p of the features block at point t is feature row 512·t + p. -/
theorem iblk0_at (c : Dev nD) (t : Fin cfg0.N) (p : Fin 512) (kk : Fin 128) (r : Fin 8192) (hr : r.val = 512 * t.val + p.val) :
    iblk m c 0 t (ix2 p kk) = Xf m c (ix2 r kk) := by
  show V m c main_arg0 (((cfg0.win 0).blk t).view.emb (ix2 p kk)) = _
  refine congrArg (V m c main_arg0) (funext fun a => Fin.ext ?_)
  obtain ⟨e0, e1, -⟩ := idx_facts t
  match a with
  | ⟨0, _⟩ => show win0_0.index t (0 : Fin 2) * 512 + 1 * p.val = r.val; omega
  | ⟨1, _⟩ => show win0_0.index t (1 : Fin 2) * 128 + 1 * kk.val = kk.val; omega

theorem iblk1_at (c : Dev nD) (t : Fin cfg0.N) (p : Fin 512) (r : Fin 8192) (hr : r.val = 512 * t.val + p.val) :
    iblk m c 1 t (ix2 p (0 : Fin 1)) = Lc m c (ix2 r (0 : Fin 1)) := by
  show V m c main_v0 (((cfg0.win 1).blk t).view.emb (ix2 p (0 : Fin 1))) = _
  refine congrArg (V m c main_v0) (funext fun a => Fin.ext ?_)
  obtain ⟨-, -, e0, e1, -⟩ := idx_facts t
  match a with
  | ⟨0, _⟩ => show win0_1.index t (0 : Fin 2) * 512 + 1 * p.val = r.val; omega
  | ⟨1, _⟩ => show win0_1.index t (1 : Fin 2) * 1 + 1 * 0 = 0; omega

theorem iblk2_at (c : Dev nD) (t : Fin cfg0.N) (j : Fin 8192) (kk : Fin 128) :
    iblk m c 2 t (ix2 j kk) = Xf m c (ix2 j kk) := by
  show V m c main_arg0 (((cfg0.win 2).blk t).view.emb (ix2 j kk)) = _
  refine congrArg (V m c main_arg0) (funext fun a => Fin.ext ?_)
  obtain ⟨-, -, -, -, e0, e1, -⟩ := idx_facts t
  match a with
  | ⟨0, _⟩ => show win0_2.index t (0 : Fin 2) * 8192 + 1 * j.val = j.val; omega
  | ⟨1, _⟩ => show win0_2.index t (1 : Fin 2) * 128 + 1 * kk.val = kk.val; omega

theorem iblk3_at (c : Dev nD) (t : Fin cfg0.N) (j : Fin 8192) :
    iblk m c 3 t (ix2 (0 : Fin 1) j) = Lr m c (ix2 (0 : Fin 1) j) := by
  show V m c main_v1 (((cfg0.win 3).blk t).view.emb (ix2 (0 : Fin 1) j)) = _
  refine congrArg (V m c main_v1) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 8192 + 1 * j.val = j.val; omega

/-- What point t writes back is block t of the loss column. -/
theorem flushed_eq (c : Dev nD) (t : Fin cfg0.N) :
    (dats m 0 c).flushed 4 t = ((cfg0.win 4).blk t).view.read (Elt Ideal) (Gcol m c) := by
  show (cfg0.win 4).cut (grid0.coords t) ((dats m 0 c).after 4 t) = _
  rw [after4]
  funext y
  obtain ⟨p, u, rfl⟩ : ∃ (p : Fin 512) (u : Fin 1), y = ix2 p u := ⟨y 0, y 1, eq_ix2 y⟩
  obtain rfl : u = 0 := Subsingleton.elim _ _
  have hp := p.isLt
  have ht := N16 t
  have hr : 512 * t.val + p.val < 8192 := by omega
  show outBlk c (grid0.coords t) (ms0 t) (hs0 t) (ms1 t) (hs1 t) (ms2 t) (hs2 t) (ms3 t) (hs3 t) (ms4 t) (hs4 t) (iblk m c 0 t) (iblk m c 1 t) (iblk m c 2 t) (iblk m c 3 t) (ix2 p (0 : Fin 1))
    = Gcol m c (((cfg0.win 4).blk t).view.emb (ix2 p (0 : Fin 1)))
  rw [outBlk_row]
  have hrow : (((cfg0.win 4).blk t).view.emb (ix2 p (0 : Fin 1))) 0 = (⟨512 * t.val + p.val, hr⟩ : Fin 8192) := by
    obtain ⟨-, -, -, -, -, -, -, -, e0, -⟩ := idx_facts t
    apply Fin.ext
    show win0_4.index t (0 : Fin 2) * 512 + 1 * p.val = 512 * t.val + p.val
    omega
  unfold Gcol rowG
  rw [hrow]
  refine congrArg₂ (fun s q => rowLoss (N := 8 * 1024) s q) (funext fun j => ?_) (funext fun j => ?_)
  · unfold sX
    exact Finset.sum_congr rfl fun kk _ => by rw [iblk0_at m c t p kk ⟨512 * t.val + p.val, hr⟩ rfl, iblk2_at]
  · unfold qX
    rw [iblk1_at m c t p ⟨512 * t.val + p.val, hr⟩ rfl, iblk3_at]

/-- An index of the column is in point t's block iff its row is among the block's 512. -/
theorem mem_blk (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v2).slice (win0_4.rect t)).set ↔ _
  rw [View.set_slice_whole, Rect.mem_set_unit]
  exact Iff.rfl

theorem idx_onto : ∀ q0 : Fin 16, ∃ t : Fin cfg0.N, t.val = q0.val :=
  fun q0 => ⟨⟨q0.val, by rw [show cfg0.N = 16 from N_0]; exact q0.isLt⟩, rfl⟩

/-- The blocks tile the column. -/
theorem cover (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  obtain ⟨t, ht⟩ := idx_onto ⟨(i 0).val / 512, by omega⟩
  refine ⟨t, flush0_4 t, ?_⟩
  rw [mem_blk]
  obtain ⟨-, -, -, -, -, -, -, -, e0, e1⟩ := idx_facts t
  have ht' : t.val = (i 0).val / 512 := ht
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1 ≤ (i 1).val ∧ (i 1).val < win0_4.index t (1 : Fin 2) * 1 + 1; omega

/-- After the region the loss column holds every row's loss. -/
theorem outArr_eq (c : Dev nD) : outArr m c = Gcol m c :=
  (dats m 0 c).arrAt_eq_of_cover 4 (Gcol m c) (fun t _ => flushed_eq m c t) cover

/-- The result: zero plus the sum over the rows of the row's loss. -/
theorem result_eq (c : Dev nD) (i : S_.Idx) :
    Vn m c (Proc.devRef .tc main_v3) i = W 0x00000000#32 + ∑ r : Fin 8192, rowG m c r := by
  have e : Vn m c (Proc.devRef .tc main_v3)
      = Host.reduceAdd (F := Ideal) (outArr m c) (constant S_ .f32 0x00000000#32) reducesTo_S8192x1_S_d0_1 h_S_ := by
    show StableHlo.after hostOps1 (V2 m c) (Proc.devRef .tc main_v3) = _
    after_results
    rw [V2_v2]
  rw [e, outArr_eq]
  simp only [Host.reduceAdd, Ideal.hostReduceAdd_def]
  rw [Ideal.hostReduceAdd_total reducesTo_S8192x1_S_d0_1 (fun b => b.elim0) (Gcol m c) _ i]
  refine congrArg₂ (· + ·) rfl ?_
  rw [← Equiv.sum_comp (⟨fun r : Fin 8192 => (ix2 r (0 : Fin 1) : S8192x1.Idx), fun j => j 0, fun r => rfl,
    fun j => by rw [eq_ix2 j]; exact congrArg (ix2 (j 0)) (Subsingleton.elim _ _)⟩ : Fin 8192 ≃ S8192x1.Idx)]
  rfl

/-! ## The arrays the region finds, from the arguments -/

theorem Xf_eq (c : Dev nD) : Xf m c = m ((c : Thread nD τ).loc main_arg0) :=
  StableHlo.after_of_forall_not_mem (b := Proc.devRef .tc main_arg0) hostOps0 (V₀ m c) (ops0_keep main_arg0 (by decide))

theorem Lc_eq (c : Dev nD) : Lc m c = sitofp (F := Ideal) .f32 (m ((c : Thread nD τ).loc main_arg1)) := by
  show StableHlo.after hostOps0 (V₀ m c) (Proc.devRef .tc main_v0) = _
  after_results

theorem Lr_eq (c : Dev nD) : Lr m c = shapeCast S1x8192 (Lc m c) shapeCasts_S8192x1_S1x8192 := by
  show StableHlo.after hostOps0 (V₀ m c) (Proc.devRef .tc main_v1) = _
  after_results
  rfl

theorem Lr_at (c : Dev nD) (j : Fin 8192) : Lr m c (ix2 (0 : Fin 1) j) = Lc m c (ix2 j (0 : Fin 1)) := by
  rw [Lr_eq]
  exact shapeCast_apply _ _ _ _ (by rw [Shape.rowMajor_val_two, Shape.rowMajor_val_two]; show j.val * 1 + 0 = 0 * 8192 + j.val; omega)

/-- The row's loss from the region's arrays is the reference's row loss of the arguments. -/
theorem rowG_eq (c : Dev nD) (r : Fin 8192) :
    rowG m c r = rowLoss (Cert.ReferenceIdeal.RefValue.sR (m ((c : Thread nD τ).loc main_arg0)) r)
      (Cert.ReferenceIdeal.RefValue.qR (m ((c : Thread nD τ).loc main_arg1)) r) := by
  unfold rowG
  refine congrArg₂ (fun s q => rowLoss (N := 8 * 1024) s q) (funext fun j => ?_) (funext fun j => ?_)
  · rw [Xf_eq]; rfl
  · rw [Lr_at, Lc_eq]; rfl

end Cert.KernelIdeal.Hand

end
-- ==== Proof.lean ====
/-
  The certificate of the multi-similarity loss kernel against its reference.

  The kernel computes, for each anchor row r of 8192 unit-norm embeddings with labels, the multi-similarity loss of the row —
  positives and negatives by label, hard pairs mined against the smallest positive and largest negative similarity, the two
  log-sum-exp terms — without ever forming the 8192 × 8192 similarity matrix: 16 grid points of 512 rows, each making two
  passes over 8 tiles of 1024 columns and keeping four running columns per pass; the host adds up the 8192 row losses. The
  reference forms the whole matrix and reduces along its rows. On the extended reals the two agree because minimum,
  maximum, sum and "some column is selected" do not depend on how the columns are grouped into tiles (RowLoss.lean); no
  finiteness of the inputs is needed.

  The three frames: both kernel programs run by the launch of a program of three stretches (host operations, the region,
  host operations), the features array held in two halves by the two windows that read it (K/Run.lean, KI/Run.lean); the
  reference by its run read back (RefRun.lean). The idealization rewrote nothing, so "preserves" is trivial.
-/
import proofs.«112171_j81698867904771_2_alg».proof.Defs
import proofs.«112171_j81698867904771_2_alg».proof.Proof.Gen.Kernel
import proofs.«112171_j81698867904771_2_alg».proof.Proof.Gen.Kernel.Skeleton
import proofs.«112171_j81698867904771_2_alg».proof.Proof.Gen.Kernel.Loops
import proofs.«112171_j81698867904771_2_alg».proof.Proof.Gen.Kernel.Launch
import proofs.«112171_j81698867904771_2_alg».proof.Proof.Gen.Kernel.Points
import proofs.«112171_j81698867904771_2_alg».proof.Proof.Gen.KernelIdeal
import proofs.«112171_j81698867904771_2_alg».proof.Proof.Gen.KernelIdeal.Skeleton
import proofs.«112171_j81698867904771_2_alg».proof.Proof.Gen.KernelIdeal.Loops
import proofs.«112171_j81698867904771_2_alg».proof.Proof.Gen.KernelIdeal.Launch
import proofs.«112171_j81698867904771_2_alg».proof.Proof.Gen.KernelIdeal.Points
import proofs.«112171_j81698867904771_2_alg».proof.Proof.Gen.ReferenceIdeal
import proofs.«112171_j81698867904771_2_alg».proof.Proof.Gen.Pre_finite_inputs
import proofs.«112171_j81698867904771_2_alg».proof.Proof.K.Run
import proofs.«112171_j81698867904771_2_alg».proof.Proof.KI.Final
import proofs.«112171_j81698867904771_2_alg».proof.Proof.RefValue
import Idealize.ShloMosaic.Adequacy
import Idealize.ShloMosaic.Init

noncomputable section

namespace Cert.Proof

open Idealize.ShloMosaic Idealize.ShloMosaic.TcCoe Idealize.SL.Sem
open scoped BigOperators

/-- The word-level kernel runs and leaves its arguments as they were. -/
theorem frame_k : Cert.frame_Kernel := fun m ρ _ =>
  (θ_run Cert.Kernel.defs _ _).mono (fun _ h c => ⟨(h c).2.1, (h c).2.2⟩) (Cert.Kernel.Hand.run_main (F := Bits) m ρ)

/-- So does the idealized kernel. -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- And the reference. -/
theorem frame_ri : Cert.frame_ReferenceIdeal := fun m ρ _ =>
  (θ_run Cert.ReferenceIdeal.defs _ _).mono (fun _ h c => (h c).2) (Cert.ReferenceIdeal.ValueP.run (F := Ideal) m ρ)

/-- On the extended reals both programs end at zero plus the sum over the rows of the row's loss of the arguments. -/
theorem algebraic : Cert.algebraic_KernelIdeal_ReferenceIdeal := by
  intro m ρ m' ρ' _ hagree
  refine ⟨fun c => fun _ => Cert.RowLoss.W 0x00000000#32 + ∑ r : Fin 8192,
      Cert.RowLoss.rowLoss (Cert.ReferenceIdeal.RefValue.sR (m ((c.tc : Thread Cert.KernelIdeal.nD Cert.KernelIdeal.τ).loc Cert.KernelIdeal.main_arg0)) r)
        (Cert.ReferenceIdeal.RefValue.qR (m ((c.tc : Thread Cert.KernelIdeal.nD Cert.KernelIdeal.τ).loc Cert.KernelIdeal.main_arg1)) r), ?_, ?_⟩
  · refine (θ_run Cert.KernelIdeal.defs _ _).mono (fun r h c => ⟨?_, (h c).2.1, (h c).2.2⟩)
      (Cert.KernelIdeal.Hand.run_main (F := Ideal) m ρ)
    rw [(h c).1]
    funext i
    rw [Cert.KernelIdeal.Hand.result_eq]
    exact congrArg (Cert.RowLoss.W 0x00000000#32 + ·) (Finset.sum_congr rfl fun r _ => Cert.KernelIdeal.Hand.rowG_eq m c r)
  · refine (θ_run Cert.ReferenceIdeal.defs _ _).mono (fun r h c => ⟨?_, (h c).2.1, (h c).2.2⟩)
      (Cert.ReferenceIdeal.ValueP.run (F := Ideal) m' ρ')
    rw [(h c).1, Cert.ReferenceIdeal.ReadP.val_main_v62_eq, (hagree c).1, (hagree c).2]
    funext i
    exact Cert.ReferenceIdeal.RefValue.result_at _ _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
